-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S16x2048 : Shape := ⟨2, ![16, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x2048 .f32) (main_arg12 : FVec F S2048 .f32) (main_arg13 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S6144 .f32) (main_arg8 : FVec F S6144 .f32) (main_arg9 : FVec F S2048x2048 .f32) (main_arg10 : FVec F S2048 .f32) (main_arg11 : FVec F S2048x2048 .f32) (main_arg12 : FVec F S2048 .f32) (main_arg13 : FVec F S2048 .f32) (main_v33 : IVec S_ 1) : IVec S_ 1 :=
  let main_v34 : FVec F S6144 .f32 := Host.absf main_arg7
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  let main_v39 : FVec F S6144 .f32 := Host.absf main_arg8
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S2048x6144 .f32) (main_arg5 : FVec F S6144 .f32) (main_arg6 : FVec F S2048x6144 .f32) (main_arg7 : FVec F S6144 .f32) (main_arg8 : FVec F S6144 .f32) (main_arg9 : FVec F S2048x2048 .f32) (main_arg10 : FVec F S2048 .f32) (main_arg11 : FVec F S2048x2048 .f32) (main_arg12 : FVec F S2048 .f32) (main_arg13 : FVec F S2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S6144 .f32 := Host.absf main_arg5
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S2048x6144 .f32 := Host.absf main_arg6
  let main_cst_10 : FVec F S_ .f32 := constant S_ .f32 0x7F800000#32
  let main_v30 : FVec F S2048x6144 .f32 := broadcastInDim S2048x6144 ![] bcast_S_S2048x6144 main_cst_10
  let main_v31 : IVec S2048x6144 1 := cmpf .olt main_v29 main_v30
  let main_c_11 : IVec S_ 1 := constantI S_ 1 1#1
  let main_v32 : IVec S_ 1 := (fun x v => Host.reduce IntOp.andi x v reducesTo_S2048x6144_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x2048 .f32) (main_arg1 : FVec F S16x2048 .f32) (main_arg2 : FVec F S1x2048 .f32) (main_arg3 : FVec F S1x2048 .f32) (main_arg4 : FVec F S2048x6144 .f32) (main_arg5 : FVec F S6144 .f32) (main_arg6 : FVec F S2048x6144 .f32) (main_arg7 : FVec F S6144 .f32) (main_arg8 : FVec F S6144 .f32) (main_arg9 : FVec F S2048x2048 .f32) (main_arg10 : FVec F S2048 .f32) (main_arg11 : FVec F S2048x2048 .f32) (main_arg12 : FVec F S2048 .f32) (main_arg13 : FVec F S2048 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x2048 : Shape := ⟨2, ![1, 2048]⟩
abbrev S16x2048 : Shape := ⟨2, ![16, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S2048x128 : Shape := ⟨2, ![2048, 128]⟩
abbrev S1x128 : Shape := ⟨2, ![1, 128]⟩
abbrev S16x128 : Shape := ⟨2, ![16, 128]⟩
abbrev S128 : Shape := ⟨1, ![128]⟩

abbrev nBuf : Space → Nat
  | .hbm => 22
  | .vmem => 31
  | .smem => 0
  | _ => 0

abbrev bufTy : (tb : Table) → Fin (tcTables nBuf tb) → BufTy
  | .hbm, ⟨0, _⟩ => ⟨S1x2048, .f32⟩
  | .hbm, ⟨1, _⟩ => ⟨S16x2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S6144, .f32⟩
  | .hbm, ⟨6, _⟩ => ⟨S2048x6144, .f32⟩
  | .hbm, ⟨7, _⟩ => ⟨S6144, .f32⟩
  | .hbm, ⟨8, _⟩ => ⟨S6144, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S6144, .f32⟩
  | .hbm, ⟨15, _⟩ => ⟨S6144, .f32⟩
  | .hbm, ⟨16, _⟩ => ⟨S1x6144, .f32⟩
  | .hbm, ⟨17, _⟩ => ⟨S2048, .f32⟩
  | .hbm, ⟨18, _⟩ => ⟨S2048, .f32⟩
  | .hbm, ⟨19, _⟩ => ⟨S1x2048, .f32⟩
  | .hbm, ⟨20, _⟩ => ⟨S1x2048, .f32⟩
  | .hbm, ⟨21, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S16x2048, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let c0_36 : Index := 0#32
  let arg0 : BitVec 32 := BitVec.ofNat 32 (i 0).val
  let c128_i32 : BitVec 32 := 128#32
  let v0 : BitVec 32 := Scalar.muli arg0 c128_i32
  let v1 : BitVec 32 := v0
  let v53 : Index := Scalar.indexCast v1
  ![0, v53.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S6144_S1x6144 : S6144.ShapeCasts S1x6144
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16x128 : S1x128.Broadcasts S16x128
  h_S16x128 : 0 < S16x128.numel
  reduces_S16x128_S128 : S16x128.Reduces [0] S128
  shapeCasts_S128_S1x128 : S128.ShapeCasts S1x128
  dot_S1x2048_S2048x128_S1x128_1_0_0_1_n_n_wf : DotDims.WF S1x2048 S2048x128 S1x128 [1] [0] [0] [1] [] []
  dot_S16x2048_S2048x128_S16x128_1_0_0_1_n_n_wf : DotDims.WF S16x2048 S2048x128 S16x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S16x128.size a ≤ S16x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .f32 = 32 ∨ (Rect.block (s := S16x2048) S16x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x6144.size a
  hwx0_3 : ∀ i : grid0.Coords, EltTy.bits .f32 = 32 ∨ (Rect.block (s := S2048x6144) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S2048x6144.size a
  hwx0_4 : ∀ i : grid0.Coords, EltTy.bits .f32 = 32 ∨ (Rect.block (s := S2048x6144) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x6144.size a
  hwx0_5 : ∀ i : grid0.Coords, EltTy.bits .f32 = 32 ∨ (Rect.block (s := S2048x6144) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x6144.size a
  hwx0_6 : ∀ i : grid0.Coords, EltTy.bits .f32 = 32 ∨ (Rect.block (s := S2048x6144) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x6144.size a
  hwx0_7 : ∀ i : grid0.Coords, EltTy.bits .f32 = 32 ∨ (Rect.block (s := S2048x6144) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x6144.size a
  hwx0_8 : ∀ i : grid0.Coords, EltTy.bits .f32 = 32 ∨ (Rect.block (s := S2048x6144) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x6144.size a
  hwx0_9 : ∀ i : grid0.Coords, EltTy.bits .f32 = 32 ∨ (Rect.block (s := S1x6144) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x6144.size a
  hwx0_10 : ∀ i : grid0.Coords, EltTy.bits .f32 = 32 ∨ (Rect.block (s := S1x6144) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x6144.size a
  hwx0_11 : ∀ i : grid0.Coords, EltTy.bits .f32 = 32 ∨ (Rect.block (s := S1x6144) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x128.size a ≤ S2048x2048.size a
  hwx0_12 : ∀ i : grid0.Coords, EltTy.bits .f32 = 32 ∨ (Rect.block (s := S2048x2048) S2048x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S2048x2048.size a
  hwx0_13 : ∀ i : grid0.Coords, EltTy.bits .f32 = 32 ∨ (Rect.block (s := S2048x2048) S2048x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x2048.size a
  hwx0_14 : ∀ i : grid0.Coords, EltTy.bits .f32 = 32 ∨ (Rect.block (s := S1x2048) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x2048.size a
  hwx0_15 : ∀ i : grid0.Coords, EltTy.bits .f32 = 32 ∨ (Rect.block (s := S1x2048) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x2048.size a
  hwx0_16 : ∀ i : grid0.Coords, EltTy.bits .f32 = 32 ∨ (Rect.block (s := S1x2048) S1x128.size (cc0_transform_16 i) (hinb0_16 i)).WholeWords (EltTy.packing .f32)

variable [Facts₀]

def dot_S1x2048_S2048x128_S1x128_1_0_0_1_n_n : DotDims S1x2048 S2048x128 S1x128 where
  lhsContracting := [1]
  rhsContracting := [0]
  lhsNonContracting := [0]
  rhsNonContracting := [1]
  lhsBatch := []
  rhsBatch := []
  wf := dot_S1x2048_S2048x128_S1x128_1_0_0_1_n_n_wf
def dot_S16x2048_S2048x128_S16x128_1_0_0_1_n_n : DotDims S16x2048 S2048x128 S16x128 where
  lhsContracting := [1]
  rhsContracting := [0]
  lhsNonContracting := [0]
  rhsNonContracting := [1]
  lhsBatch := []
  rhsBatch := []
  wf := dot_S16x2048_S2048x128_S16x128_1_0_0_1_n_n_wf

abbrev win0_0 : Pipeline.Window sig grid0 :=
  Pipeline.Window.ofSpec (Memref.whole main_arg0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S2048x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S2048x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S2048x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6_0) S1x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6_1) S1x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1x2048 : Shape := ⟨2, ![1, 2048]⟩
abbrev S16x2048 : Shape := ⟨2, ![16, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S_ : Shape := ⟨0, ![]⟩
abbrev S17x2048 : Shape := ⟨2, ![17, 2048]⟩

abbrev nBuf : Space → Nat
  | .hbm => 76
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S16x2048, .f32⟩
  | .hbm, ⟨2, _⟩ => ⟨S1x2048, .f32⟩
  | .hbm, ⟨3, _⟩ => ⟨S1x2048, .f32⟩
  | .hbm, ⟨4, _⟩ => ⟨S2048x6144, .f32⟩
  | .hbm, ⟨5, _⟩ => ⟨S6144, .f32⟩
  | .hbm, ⟨6, _⟩ => ⟨S2048x6144, .f32⟩
  | .hbm, ⟨7, _⟩ => ⟨S6144, .f32⟩
  | .hbm, ⟨8, _⟩ => ⟨S6144, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S1x6144, .f32⟩
  | .hbm, ⟨15, _⟩ => ⟨S1x6144, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S1x6144, .f32⟩
  | .hbm, ⟨20, _⟩ => ⟨S1x6144, .f32⟩
  | .hbm, ⟨21, _⟩ => ⟨S1x6144, .f32⟩
  | .hbm, ⟨22, _⟩ => ⟨S1x6144, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S16x2048, .f32⟩
  | .hbm, ⟨49, _⟩ => ⟨S1x2048, .f32⟩
  | .hbm, ⟨50, _⟩ => ⟨S16x2048, .f32⟩
  | .hbm, ⟨51, _⟩ => ⟨S16x2048, .f32⟩
  | .hbm, ⟨52, _⟩ => ⟨S16x2048, .f32⟩
  | .hbm, ⟨53, _⟩ => ⟨S16x2048, .f32⟩
  | .hbm, ⟨54, _⟩ => ⟨S16x2048, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S_, .f32⟩
  | .hbm, ⟨60, _⟩ => ⟨S16x2048, .f32⟩
  | .hbm, ⟨61, _⟩ => ⟨S16x2048, .f32⟩
  | .hbm, ⟨62, _⟩ => ⟨S17x2048, .f32⟩
  | .hbm, ⟨63, _⟩ => ⟨S17x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S17x2048, .f32⟩
  | .hbm, ⟨68, _⟩ => ⟨S17x2048, .f32⟩
  | .hbm, ⟨69, _⟩ => ⟨S17x2048, .f32⟩
  | .hbm, ⟨70, _⟩ => ⟨S17x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S1x2048, .f32⟩
  | .hbm, ⟨75, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S_S16x2048 : S_.BroadcastsInDim S16x2048 (![] : Fin 0 → Fin S16x2048.rank)
  concatenates_S1x2048_S16x2048_S17x2048_d0 : Shape.Concatenates [S1x2048, S16x2048] S17x2048 0
  reducesTo_S17x2048_S2048_d0 : S17x2048.ReducesTo [0] S2048
  h_S_ : 0 < S_.numel
  bcast_S1x2048_S17x2048_0_1 : S1x2048.BroadcastsInDim S17x2048 (![0, 1] : Fin 2 → Fin S17x2048.rank)
  shapeCasts_S2048_S1x2048 : S2048.ShapeCasts S1x2048
  dot_S1x2048_S2048x6144_S1x6144_1_0_0_1_n_n_wf : DotDims.WF S1x2048 S2048x6144 S1x6144 [1] [0] [0] [1] [] []
  dot_S1x2048_S2048x2048_S1x2048_1_0_0_1_n_n_wf : DotDims.WF S1x2048 S2048x2048 S1x2048 [1] [0] [0] [1] [] []
  dot_S16x2048_S2048x2048_S16x2048_1_0_0_1_n_n_wf : DotDims.WF S16x2048 S2048x2048 S16x2048 [1] [0] [0] [1] [] []

variable [Facts₀]

def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

class Facts : Prop extends Facts₀ where

variable [Facts]
-- ==== Proof.WordRegion.lean ====
/-
  The fused cell step as a pipeline run: sixteen grid steps, each reading the input row, the hidden row and the
  sixteen word cells whole, one 128-column tile per gate of each gate matrix and of the summed gate bias row, the
  128-column tiles of the two attention matrices and of the summed attention bias row, and writing 128 new hidden
  values and 128 new cell values. The gate matrices and the gate bias row each reach the step through three windows;
  the full share of each such array is dealt among its three windows. What is proved here: the program runs to the
  end without a fault, every argument array ends as it began, and each result array ends as the write-backs of the
  sixteen steps leave it.
-/
import proofs.«149161_j44607530336618_2_alg».proof.Proof.Gen.Kernel.Launch
import proofs.«149161_j44607530336618_2_alg».proof.Proof.Gen.Kernel.Skeleton
import proofs.«149161_j44607530336618_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region

Two bias rows are summed on the host before the fused step is launched: the three gate biases into one row of 6144
entries and the three attention biases into one row of 2048 entries. The region finds every buffer as these six
operations leave it. -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the six host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.binary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there. -/
theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not it was fetched there. -/
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not it was fetched there. -/
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether or not it was fetched there. -/
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether or not it was fetched there. -/
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether or not it was fetched there. -/
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether or not it was fetched there. -/
theorem found_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether or not it was fetched there. -/
theorem found_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether or not it was fetched there. -/
theorem found_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether or not it was fetched there. -/
theorem found_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether or not it was fetched there. -/
theorem found_10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, whether or not it was fetched there. -/
theorem found_11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, whether or not it was fetched there. -/
theorem found_12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, whether or not it was fetched there. -/
theorem found_13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, whether or not it was fetched there. -/
theorem found_14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## What one grid step stores

A step reads the input row, the hidden row and the sixteen word cells whole, three column tiles of each gate matrix,
the two attention tiles, four bias pieces, and the step's own 128 columns of the word cells; it stores the 128 new
cell values and the 128 new hidden values. -/

abbrev rRow : Rect S1x2048 := Rect.unit (s := S1x2048) ![0, 0] S1x2048.size inb_S1x2048_S1x2048_0_0
abbrev rWords : Rect S16x2048 := Rect.unit (s := S16x2048) ![0, 0] S16x2048.size inb_S16x2048_S16x2048_0_0
abbrev rTile : Rect S2048x128 := Rect.unit (s := S2048x128) ![0, 0] S2048x128.size inb_S2048x128_S2048x128_0_0
abbrev rLane : Rect S1x128 := Rect.unit (s := S1x128) ![0, 0] S1x128.size inb_S1x128_S1x128_0_0
/-- The step's own columns of the word cells: 128 columns starting at 128 times the step's number. -/
abbrev rSlice (i : grid0.Coords) : Rect S16x2048 := Rect.unit (s := S16x2048) (k0_off1 i) S16x128.size (k0_off1_inb i)

/-- The new cell values of one step, from the blocks the step is handed. -/
def cellOut (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (i : grid0.Coords) : Vec F S1x128 .f32 :=
  k0_pay8 (k0_pay1 (View.ld x0 rRow)) (k0_pay2 (View.ld x1 rRow)) (k0_pay3 (View.ld x2 rWords)) (k0_pay4 (View.ld x5 rTile)) (k0_pay5 (View.ld x8 rTile))
    (k0_pay6 (View.ld x0 rRow) (View.ld x1 rRow) (View.ld x3 rTile) (View.ld x6 rTile) (View.ld x9 rLane))
    (View.ld x11 rLane) (View.ld x12 rTile) (View.ld x13 rTile) (View.ld x14 rLane) (View.ld x2 (rSlice i))

/-- The new hidden values of one step. -/
def hiddenOut (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (i : grid0.Coords) : Vec F S1x128 .f32 :=
  k0_pay9 (k0_pay1 (View.ld x0 rRow)) (k0_pay2 (View.ld x1 rRow)) (k0_pay3 (View.ld x2 rWords)) (k0_pay4 (View.ld x5 rTile)) (k0_pay5 (View.ld x8 rTile))
    (k0_pay6 (View.ld x0 rRow) (View.ld x1 rRow) (View.ld x3 rTile) (View.ld x6 rTile) (View.ld x9 rLane))
    (k0_pay7 (View.ld x0 rRow) (View.ld x1 rRow) (View.ld x4 rTile) (View.ld x7 rTile) (View.ld x10 rLane))
    (View.ld x11 rLane) (View.ld x12 rTile) (View.ld x13 rTile) (View.ld x14 rLane) (View.ld x2 (rSlice i))

/-! ## One step on its staging buffers -/

set_option maxHeartbeats 1000000 in
/-- The step's body, run on whole staging buffers holding the input blocks (the two output buffers holding anything),
    leaves the inputs as they were and the two output buffers at the step's new hidden and cell values. -/
theorem stepRuns (c : Dev nD) (E : Set ℕ) (i : grid0.Coords) (a0 : Memref sig .tc .vmem S1x2048 .f32) (h0 : a0.IsWhole) (a1 : Memref sig .tc .vmem S1x2048 .f32) (h1 : a1.IsWhole) (a2 : Memref sig .tc .vmem S16x2048 .f32) (h2 : a2.IsWhole) (a3 : Memref sig .tc .vmem S2048x128 .f32) (h3 : a3.IsWhole) (a4 : Memref sig .tc .vmem S2048x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S2048x128 .f32) (h12 : a12.IsWhole) (a13 : Memref sig .tc .vmem S2048x128 .f32) (h13 : a13.IsWhole) (a14 : Memref sig .tc .vmem S1x128 .f32) (h14 : a14.IsWhole) (a15 : Memref sig .tc .vmem S1x128 .f32) (h15 : a15.IsWhole) (a16 : Memref sig .tc .vmem S1x128 .f32) (h16 : a16.IsWhole)
    (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d) ∗ (∃ d, owns (c : Thread nD τ) a16 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (View.canon [⟨rLane, hiddenOut x0 x1 x2 x3 x4 x5 x6 x7 x8 x9 x10 x11 x12 x13 x14 i⟩]) ∗ owns (c : Thread nD τ) a16 fullShare (View.canon [⟨rLane, cellOut x0 x1 x2 x3 x4 x5 x6 x7 x8 x9 x10 x11 x12 x13 x14 i⟩])) -∗ K ⟨⟩))
      ⊢ wp frame (wpE (defs₀ (F := F)) Variants.none c none) E (cc0__cell_kernel i a0 h0 a1 h1 a2 h2 a3 h3 a4 h4 a5 h5 a6 h6 a7 h7 a8 h8 a9 h9 a10 h10 a11 h11 a12 h12 a13 h13 a14 h14 a15 h15 a16 h16) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    exact View.read_writes_eq_canon _ _ _ (View.cover_of_tiled [⟨rLane, _⟩] S1x128.size (by rfl))
  · iexists _; isplitr
    swap; · iexact H16
    ipureintro
    sl_unfold_run_names
    exact View.read_writes_eq_canon _ _ _ (View.cover_of_tiled [⟨rLane, _⟩] S1x128.size (by rfl))

/-! ## The proof data

The gate matrices and the gate bias row are each read through three windows (one per gate); the array's full share
is dealt among its three windows as a half and two quarters. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => View.canon [⟨rLane, hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩]
    | ⟨16, _⟩ => View.canon [⟨rLane, cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩]
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = View.canon [⟨rLane, hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩] := by dsimp only [dats]
theorem after_16 (c : Dev nD) (t : Fin cfg0.N) : (dats m 0 c).after 16 t = View.canon [⟨rLane, cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩] := by dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d
theorem before_6 (c : Dev nD) (t : Fin cfg0.N) (d) : (dats m 0 c).before 6 t d = iblk m c 6 t :=
  found_6 m (dats m 0 c) (A_eq m c 6) (after_6 m c) t d
theorem before_7 (c : Dev nD) (t : Fin cfg0.N) (d) : (dats m 0 c).before 7 t d = iblk m c 7 t :=
  found_7 m (dats m 0 c) (A_eq m c 7) (after_7 m c) t d
theorem before_8 (c : Dev nD) (t : Fin cfg0.N) (d) : (dats m 0 c).before 8 t d = iblk m c 8 t :=
  found_8 m (dats m 0 c) (A_eq m c 8) (after_8 m c) t d
theorem before_9 (c : Dev nD) (t : Fin cfg0.N) (d) : (dats m 0 c).before 9 t d = iblk m c 9 t :=
  found_9 m (dats m 0 c) (A_eq m c 9) (after_9 m c) t d
theorem before_10 (c : Dev nD) (t : Fin cfg0.N) (d) : (dats m 0 c).before 10 t d = iblk m c 10 t :=
  found_10 m (dats m 0 c) (A_eq m c 10) (after_10 m c) t d
theorem before_11 (c : Dev nD) (t : Fin cfg0.N) (d) : (dats m 0 c).before 11 t d = iblk m c 11 t :=
  found_11 m (dats m 0 c) (A_eq m c 11) (after_11 m c) t d
theorem before_12 (c : Dev nD) (t : Fin cfg0.N) (d) : (dats m 0 c).before 12 t d = iblk m c 12 t :=
  found_12 m (dats m 0 c) (A_eq m c 12) (after_12 m c) t d
theorem before_13 (c : Dev nD) (t : Fin cfg0.N) (d) : (dats m 0 c).before 13 t d = iblk m c 13 t :=
  found_13 m (dats m 0 c) (A_eq m c 13) (after_13 m c) t d
theorem before_14 (c : Dev nD) (t : Fin cfg0.N) (d) : (dats m 0 c).before 14 t d = iblk m c 14 t :=
  found_14 m (dats m 0 c) (A_eq m c 14) (after_14 m c) t d

/-! ## The obligation at a grid point -/

def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

theorem stepSound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (stepRuns c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem obligation (c : Dev nD) : BodyObligation (dats (F := F) m 0 c) (defs₀ (F := F)) Variants.none () Set.univ := fun t => by
  rw [bigSep_W0, bigSep_W0]
  exact stepSound m c t

/-! ## The arrays dealt among the windows, and the run -/

theorem inv_eq (c : Dev nD) (t : Fin (cfg0.N + 1)) : (dats m 0 c).Φ t = Pipeline.scopedRest (Ix := Unit) (Name := ℕ) (U := UR sig nD τ) (Lvl := ℕ) (Val := Elt F) spec0 c := rfl

/-- The eleven distinct buffers behind the seventeen windows, each held whole, make the windows' arrays: each gate
    matrix and the gate bias row split into a half and two quarters of the full share, one part per gate. Stated for
    any contents of the buffers and any proof data holding those shares. -/
theorem deal_of {c : Dev nD} (dat : Dat τ (Elt F) Unit ℕ (UR sig nD τ) ℕ cfg0 c)
    (Vc : (b : Ref sig .tc) → Buf (Elt F) ((c.tc : Thread nD τ).loc b))
    (hF : ∀ w, dat.arrAt w 0 = Vc (Pipeline.arrRef spec0 w))
    (s0 : dat.share (0 : Fin 17) = fullShare) (s1 : dat.share (1 : Fin 17) = fullShare) (s2 : dat.share (2 : Fin 17) = fullShare) (s3 : dat.share (3 : Fin 17) = fullShare.left) (s4 : dat.share (4 : Fin 17) = fullShare.right.left) (s5 : dat.share (5 : Fin 17) = fullShare.right.right) (s6 : dat.share (6 : Fin 17) = fullShare.left) (s7 : dat.share (7 : Fin 17) = fullShare.right.left) (s8 : dat.share (8 : Fin 17) = fullShare.right.right) (s9 : dat.share (9 : Fin 17) = fullShare.left) (s10 : dat.share (10 : Fin 17) = fullShare.right.left) (s11 : dat.share (11 : Fin 17) = fullShare.right.right) (s12 : dat.share (12 : Fin 17) = fullShare) (s13 : dat.share (13 : Fin 17) = fullShare) (s14 : dat.share (14 : Fin 17) = fullShare) (s15 : dat.share (15 : Fin 17) = fullShare) (s16 : dat.share (16 : Fin 17) = fullShare) :
    (Pipeline.arrBufs spec0 c Vc : sProp 𝕄) ⊢ dat.arrays (dat.arrAt · 0) := by
  have e : dat.arrays (dat.arrAt · 0)
      = bigSep Finset.univ fun w : Fin 17 => (((c.tc : Thread nD τ).loc (Pipeline.arrRef spec0 w)) ↦{dat.share w} Vc (Pipeline.arrRef spec0 w) : sProp 𝕄) := by
    unfold Dat.arrays
    exact bigSep_congr fun w _ => by rw [(arr_whole0 w).set_eq_univ]; dsimp only; rw [hF]
  rw [e]; unfold Pipeline.arrBufs
  rw [bigSep_eq_bigSepL_of_eq [main_arg0, main_arg2, main_arg1, main_arg4, main_arg6, main_v2, main_arg9, main_arg11, main_v5, main_v6_0, main_v6_1] (by decide) (by decide), bigSep_W0]
  show iprop((((c.tc : Thread nD τ).loc main_arg0) ↦{fullShare} Vc main_arg0) ∗ (((c.tc : Thread nD τ).loc main_arg2) ↦{fullShare} Vc main_arg2) ∗ (((c.tc : Thread nD τ).loc main_arg1) ↦{fullShare} Vc main_arg1) ∗ (((c.tc : Thread nD τ).loc main_arg4) ↦{fullShare} Vc main_arg4) ∗ (((c.tc : Thread nD τ).loc main_arg6) ↦{fullShare} Vc main_arg6) ∗ (((c.tc : Thread nD τ).loc main_v2) ↦{fullShare} Vc main_v2) ∗ (((c.tc : Thread nD τ).loc main_arg9) ↦{fullShare} Vc main_arg9) ∗ (((c.tc : Thread nD τ).loc main_arg11) ↦{fullShare} Vc main_arg11) ∗ (((c.tc : Thread nD τ).loc main_v5) ↦{fullShare} Vc main_v5) ∗ (((c.tc : Thread nD τ).loc main_v6_0) ↦{fullShare} Vc main_v6_0) ∗ (((c.tc : Thread nD τ).loc main_v6_1) ↦{fullShare} Vc main_v6_1)) ⊢ _
  simp only [s0, s1, s2, s3, s4, s5, s6, s7, s8, s9, s10, s11, s12, s13, s14, s15, s16]
  iintro ⟨H0, H1, H2, Hi, Hh, Hb, H12, H13, H14, H15, H16⟩
  ihave Hi' := (pointsTo_share (PosShare.mem_left_op_right fullShare)).1 $$ Hi
  icases Hi' with ⟨H3, Hi'⟩
  ihave Hi'' := (pointsTo_share (PosShare.mem_left_op_right fullShare.right)).1 $$ Hi'
  icases Hi'' with ⟨H4, H5⟩
  ihave Hh' := (pointsTo_share (PosShare.mem_left_op_right fullShare)).1 $$ Hh
  icases Hh' with ⟨H6, Hh'⟩
  ihave Hh'' := (pointsTo_share (PosShare.mem_left_op_right fullShare.right)).1 $$ Hh'
  icases Hh'' with ⟨H7, H8⟩
  ihave Hb' := (pointsTo_share (PosShare.mem_left_op_right fullShare)).1 $$ Hb
  icases Hb' with ⟨H9, Hb'⟩
  ihave Hb'' := (pointsTo_share (PosShare.mem_left_op_right fullShare.right)).1 $$ Hb'
  icases Hb'' with ⟨H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem deal (c : Dev nD) : (Pipeline.arrBufs spec0 c (V m c) : sProp 𝕄) ⊢ (dats m 0 c).arrays ((dats m 0 c).arrAt · 0) :=
  deal_of (dats m 0 c) (V m c) (fun _ => rfl) rfl rfl rfl rfl rfl rfl rfl rfl rfl rfl rfl rfl rfl rfl rfl rfl rfl

/-- What the run ends with: every window's array as the write-backs leave it, every other unscoped buffer as the
    region found it. -/
def RegionPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- Every weakly fair execution of the program terminates without a fault, in a state as `RegionPost` says. -/
theorem run : θ_run defs (onTc (τ := τ) (main (F := F))) (s₀ m ρ) (RegionPost m) :=
  Pipeline.θ_run_region_noSem_shared cfgs (dats m) () cellOf_inj (0 : Fin 1) winFacts₀0 emb₁ defs₀ Variants.none m ρ main
    (hbody := fun c => (obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by rw [inv_eq]; iintro ⟨-, H⟩; iexact H)
    (hout := fun c => by
      rw [inv_eq]; iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- In a state as `RegionPost` says every argument array is as it was: a staged argument is never written back, and
    the others bypass the region. -/
theorem argsKept (r : PUnit × MemSt nD τ sig (Elt F)) (h : RegionPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 3).trans (((dats m 0 c).arrAt_in 3 rfl _).trans ((A_eq m c 3).trans (V_main_arg4 m c))),
      ((h c).2 main_arg5 (Pipeline.mem_restRefs_of main_arg5 rfl (by decide))).trans (V_main_arg5 m c),
      ((h c).1 6).trans (((dats m 0 c).arrAt_in 6 rfl _).trans ((A_eq m c 6).trans (V_main_arg6 m c))),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).1 12).trans (((dats m 0 c).arrAt_in 12 rfl _).trans ((A_eq m c 12).trans (V_main_arg9 m c))),
      ((h c).2 main_arg10 (Pipeline.mem_restRefs_of main_arg10 rfl (by decide))).trans (V_main_arg10 m c),
      ((h c).1 13).trans (((dats m 0 c).arrAt_in 13 rfl _).trans ((A_eq m c 13).trans (V_main_arg11 m c))),
      ((h c).2 main_arg12 (Pipeline.mem_restRefs_of main_arg12 rfl (by decide))).trans (V_main_arg12 m c),
      ((h c).2 main_arg13 (Pipeline.mem_restRefs_of main_arg13 rfl (by decide))).trans (V_main_arg13 m c)⟩

/-- The program runs to the end, faults nowhere, and leaves its fourteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => argsKept m r h c) (run m ρ)

end Cert.Kernel.Cell

end
-- ==== Proof.IdealRegion.lean ====
/-
  The fused cell step as a pipeline run: sixteen grid steps, each reading the input row, the hidden row and the
  sixteen word cells whole, one 128-column tile per gate of each gate matrix and of the summed gate bias row, the
  128-column tiles of the two attention matrices and of the summed attention bias row, and writing 128 new hidden
  values and 128 new cell values. The gate matrices and the gate bias row each reach the step through three windows;
  the full share of each such array is dealt among its three windows. What is proved here: the program runs to the
  end without a fault, every argument array ends as it began, and each result array ends as the write-backs of the
  sixteen steps leave it.
-/
import proofs.«149161_j44607530336618_2_alg».proof.Proof.Gen.KernelIdeal.Launch
import proofs.«149161_j44607530336618_2_alg».proof.Proof.Gen.KernelIdeal.Skeleton
import proofs.«149161_j44607530336618_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region

Two bias rows are summed on the host before the fused step is launched: the three gate biases into one row of 6144
entries and the three attention biases into one row of 2048 entries. The region finds every buffer as these six
operations leave it. -/

/-- Core `c`'s buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the six host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.binary_writes, StableHlo.reshape_writes, Finset.mem_singleton]
    repeat' apply And.intro
    all_goals exact StableHlo.devRef_ne_of_ne (by decide)))
/-- No host operation writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.binary_writes, StableHlo.reshape_writes, Finset.mem_singleton]
    repeat' apply And.intro
    all_goals exact StableHlo.devRef_ne_of_ne (by decide)))

/-! ## The blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether or not it was fetched there. -/
theorem found_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether or not it was fetched there. -/
theorem found_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether or not it was fetched there. -/
theorem found_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether or not it was fetched there. -/
theorem found_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether or not it was fetched there. -/
theorem found_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether or not it was fetched there. -/
theorem found_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether or not it was fetched there. -/
theorem found_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether or not it was fetched there. -/
theorem found_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether or not it was fetched there. -/
theorem found_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether or not it was fetched there. -/
theorem found_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether or not it was fetched there. -/
theorem found_10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, whether or not it was fetched there. -/
theorem found_11 {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, whether or not it was fetched there. -/
theorem found_12 {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, whether or not it was fetched there. -/
theorem found_13 {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point, whether or not it was fetched there. -/
theorem found_14 {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## What one grid step stores

A step reads the input row, the hidden row and the sixteen word cells whole, three column tiles of each gate matrix,
the two attention tiles, four bias pieces, and the step's own 128 columns of the word cells; it stores the 128 new
cell values and the 128 new hidden values. -/

abbrev rRow : Rect S1x2048 := Rect.unit (s := S1x2048) ![0, 0] S1x2048.size inb_S1x2048_S1x2048_0_0
abbrev rWords : Rect S16x2048 := Rect.unit (s := S16x2048) ![0, 0] S16x2048.size inb_S16x2048_S16x2048_0_0
abbrev rTile : Rect S2048x128 := Rect.unit (s := S2048x128) ![0, 0] S2048x128.size inb_S2048x128_S2048x128_0_0
abbrev rLane : Rect S1x128 := Rect.unit (s := S1x128) ![0, 0] S1x128.size inb_S1x128_S1x128_0_0
/-- The step's own columns of the word cells: 128 columns starting at 128 times the step's number. -/
abbrev rSlice (i : grid0.Coords) : Rect S16x2048 := Rect.unit (s := S16x2048) (k0_off1 i) S16x128.size (k0_off1_inb i)

/-- The new cell values of one step, from the blocks the step is handed. -/
def cellOut (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (i : grid0.Coords) : Vec F S1x128 .f32 :=
  k0_pay8 (k0_pay1 (View.ld x0 rRow)) (k0_pay2 (View.ld x1 rRow)) (k0_pay3 (View.ld x2 rWords)) (k0_pay4 (View.ld x5 rTile)) (k0_pay5 (View.ld x8 rTile))
    (k0_pay6 (View.ld x0 rRow) (View.ld x1 rRow) (View.ld x3 rTile) (View.ld x6 rTile) (View.ld x9 rLane))
    (View.ld x11 rLane) (View.ld x12 rTile) (View.ld x13 rTile) (View.ld x14 rLane) (View.ld x2 (rSlice i))

/-- The new hidden values of one step. -/
def hiddenOut (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (i : grid0.Coords) : Vec F S1x128 .f32 :=
  k0_pay9 (k0_pay1 (View.ld x0 rRow)) (k0_pay2 (View.ld x1 rRow)) (k0_pay3 (View.ld x2 rWords)) (k0_pay4 (View.ld x5 rTile)) (k0_pay5 (View.ld x8 rTile))
    (k0_pay6 (View.ld x0 rRow) (View.ld x1 rRow) (View.ld x3 rTile) (View.ld x6 rTile) (View.ld x9 rLane))
    (k0_pay7 (View.ld x0 rRow) (View.ld x1 rRow) (View.ld x4 rTile) (View.ld x7 rTile) (View.ld x10 rLane))
    (View.ld x11 rLane) (View.ld x12 rTile) (View.ld x13 rTile) (View.ld x14 rLane) (View.ld x2 (rSlice i))

/-! ## One step on its staging buffers -/

set_option maxHeartbeats 1000000 in
/-- The step's body, run on whole staging buffers holding the input blocks (the two output buffers holding anything),
    leaves the inputs as they were and the two output buffers at the step's new hidden and cell values. -/
theorem stepRuns (c : Dev nD) (E : Set ℕ) (i : grid0.Coords) (a0 : Memref sig .tc .vmem S1x2048 .f32) (h0 : a0.IsWhole) (a1 : Memref sig .tc .vmem S1x2048 .f32) (h1 : a1.IsWhole) (a2 : Memref sig .tc .vmem S16x2048 .f32) (h2 : a2.IsWhole) (a3 : Memref sig .tc .vmem S2048x128 .f32) (h3 : a3.IsWhole) (a4 : Memref sig .tc .vmem S2048x128 .f32) (h4 : a4.IsWhole) (a5 : Memref sig .tc .vmem S2048x128 .f32) (h5 : a5.IsWhole) (a6 : Memref sig .tc .vmem S2048x128 .f32) (h6 : a6.IsWhole) (a7 : Memref sig .tc .vmem S2048x128 .f32) (h7 : a7.IsWhole) (a8 : Memref sig .tc .vmem S2048x128 .f32) (h8 : a8.IsWhole) (a9 : Memref sig .tc .vmem S1x128 .f32) (h9 : a9.IsWhole) (a10 : Memref sig .tc .vmem S1x128 .f32) (h10 : a10.IsWhole) (a11 : Memref sig .tc .vmem S1x128 .f32) (h11 : a11.IsWhole) (a12 : Memref sig .tc .vmem S2048x128 .f32) (h12 : a12.IsWhole) (a13 : Memref sig .tc .vmem S2048x128 .f32) (h13 : a13.IsWhole) (a14 : Memref sig .tc .vmem S1x128 .f32) (h14 : a14.IsWhole) (a15 : Memref sig .tc .vmem S1x128 .f32) (h15 : a15.IsWhole) (a16 : Memref sig .tc .vmem S1x128 .f32) (h16 : a16.IsWhole)
    (x0 : Vec F S1x2048 .f32) (x1 : Vec F S1x2048 .f32) (x2 : Vec F S16x2048 .f32) (x3 : Vec F S2048x128 .f32) (x4 : Vec F S2048x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S2048x128 .f32) (x13 : Vec F S2048x128 .f32) (x14 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a15 fullShare d) ∗ (∃ d, owns (c : Thread nD τ) a16 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare (View.canon [⟨rLane, hiddenOut x0 x1 x2 x3 x4 x5 x6 x7 x8 x9 x10 x11 x12 x13 x14 i⟩]) ∗ owns (c : Thread nD τ) a16 fullShare (View.canon [⟨rLane, cellOut x0 x1 x2 x3 x4 x5 x6 x7 x8 x9 x10 x11 x12 x13 x14 i⟩])) -∗ K ⟨⟩))
      ⊢ wp frame (wpE (defs₀ (F := F)) Variants.none c none) E (cc0__cell_kernel i a0 h0 a1 h1 a2 h2 a3 h3 a4 h4 a5 h5 a6 h6 a7 h7 a8 h8 a9 h9 a10 h10 a11 h11 a12 h12 a13 h13 a14 h14 a15 h15 a16 h16) K := by
  simp only [cc0__cell_kernel_eq_skeleton]; unfold cc0__cell_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_run_names
    exact View.read_writes_eq_canon _ _ _ (View.cover_of_tiled [⟨rLane, _⟩] S1x128.size (by rfl))
  · iexists _; isplitr
    swap; · iexact H16
    ipureintro
    sl_unfold_run_names
    exact View.read_writes_eq_canon _ _ _ (View.cover_of_tiled [⟨rLane, _⟩] S1x128.size (by rfl))

/-! ## The proof data

The gate matrices and the gate bias row are each read through three windows (one per gate); the array's full share
is dealt among its three windows as a half and two quarters. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => View.canon [⟨rLane, hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩]
    | ⟨16, _⟩ => View.canon [⟨rLane, cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩]
    | ⟨_ + 17, h⟩ => absurd h (Nat.not_lt.2 (Nat.le_add_left _ _))
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare
    | ⟨3, _⟩ => fullShare.left
    | ⟨4, _⟩ => fullShare.right.left
    | ⟨5, _⟩ => fullShare.right.right
    | ⟨6, _⟩ => fullShare.left
    | ⟨7, _⟩ => fullShare.right.left
    | ⟨8, _⟩ => fullShare.right.right
    | ⟨9, _⟩ => fullShare.left
    | ⟨10, _⟩ => fullShare.right.left
    | ⟨11, _⟩ => fullShare.right.right
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = View.canon [⟨rLane, hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩] := by dsimp only [dats]
theorem after_16 (c : Dev nD) (t : Fin cfg0.N) : (dats m 0 c).after 16 t = View.canon [⟨rLane, cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t)⟩] := by dsimp only [dats]

theorem before_0 (c : Dev nD) (t : Fin cfg0.N) (d) : (dats m 0 c).before 0 t d = iblk m c 0 t :=
  found_0 m (dats m 0 c) (A_eq m c 0) (after_0 m c) t d
theorem before_1 (c : Dev nD) (t : Fin cfg0.N) (d) : (dats m 0 c).before 1 t d = iblk m c 1 t :=
  found_1 m (dats m 0 c) (A_eq m c 1) (after_1 m c) t d
theorem before_2 (c : Dev nD) (t : Fin cfg0.N) (d) : (dats m 0 c).before 2 t d = iblk m c 2 t :=
  found_2 m (dats m 0 c) (A_eq m c 2) (after_2 m c) t d
theorem before_3 (c : Dev nD) (t : Fin cfg0.N) (d) : (dats m 0 c).before 3 t d = iblk m c 3 t :=
  found_3 m (dats m 0 c) (A_eq m c 3) (after_3 m c) t d
theorem before_4 (c : Dev nD) (t : Fin cfg0.N) (d) : (dats m 0 c).before 4 t d = iblk m c 4 t :=
  found_4 m (dats m 0 c) (A_eq m c 4) (after_4 m c) t d
theorem before_5 (c : Dev nD) (t : Fin cfg0.N) (d) : (dats m 0 c).before 5 t d = iblk m c 5 t :=
  found_5 m (dats m 0 c) (A_eq m c 5) (after_5 m c) t d
theorem before_6 (c : Dev nD) (t : Fin cfg0.N) (d) : (dats m 0 c).before 6 t d = iblk m c 6 t :=
  found_6 m (dats m 0 c) (A_eq m c 6) (after_6 m c) t d
theorem before_7 (c : Dev nD) (t : Fin cfg0.N) (d) : (dats m 0 c).before 7 t d = iblk m c 7 t :=
  found_7 m (dats m 0 c) (A_eq m c 7) (after_7 m c) t d
theorem before_8 (c : Dev nD) (t : Fin cfg0.N) (d) : (dats m 0 c).before 8 t d = iblk m c 8 t :=
  found_8 m (dats m 0 c) (A_eq m c 8) (after_8 m c) t d
theorem before_9 (c : Dev nD) (t : Fin cfg0.N) (d) : (dats m 0 c).before 9 t d = iblk m c 9 t :=
  found_9 m (dats m 0 c) (A_eq m c 9) (after_9 m c) t d
theorem before_10 (c : Dev nD) (t : Fin cfg0.N) (d) : (dats m 0 c).before 10 t d = iblk m c 10 t :=
  found_10 m (dats m 0 c) (A_eq m c 10) (after_10 m c) t d
theorem before_11 (c : Dev nD) (t : Fin cfg0.N) (d) : (dats m 0 c).before 11 t d = iblk m c 11 t :=
  found_11 m (dats m 0 c) (A_eq m c 11) (after_11 m c) t d
theorem before_12 (c : Dev nD) (t : Fin cfg0.N) (d) : (dats m 0 c).before 12 t d = iblk m c 12 t :=
  found_12 m (dats m 0 c) (A_eq m c 12) (after_12 m c) t d
theorem before_13 (c : Dev nD) (t : Fin cfg0.N) (d) : (dats m 0 c).before 13 t d = iblk m c 13 t :=
  found_13 m (dats m 0 c) (A_eq m c 13) (after_13 m c) t d
theorem before_14 (c : Dev nD) (t : Fin cfg0.N) (d) : (dats m 0 c).before 14 t d = iblk m c 14 t :=
  found_14 m (dats m 0 c) (A_eq m c 14) (after_14 m c) t d

/-! ## The obligation at a grid point -/

def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

theorem stepSound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4, before_5, before_6, before_7, before_8, before_9, before_10, before_11, before_12, before_13, before_14]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (stepRuns c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem obligation (c : Dev nD) : BodyObligation (dats (F := F) m 0 c) (defs₀ (F := F)) Variants.none () Set.univ := fun t => by
  rw [bigSep_W0, bigSep_W0]
  exact stepSound m c t

/-! ## The arrays dealt among the windows, and the run -/

theorem inv_eq (c : Dev nD) (t : Fin (cfg0.N + 1)) : (dats m 0 c).Φ t = Pipeline.scopedRest (Ix := Unit) (Name := ℕ) (U := UR sig nD τ) (Lvl := ℕ) (Val := Elt F) spec0 c := rfl

/-- The eleven distinct buffers behind the seventeen windows, each held whole, make the windows' arrays: each gate
    matrix and the gate bias row split into a half and two quarters of the full share, one part per gate. Stated for
    any contents of the buffers and any proof data holding those shares. -/
theorem deal_of {c : Dev nD} (dat : Dat τ (Elt F) Unit ℕ (UR sig nD τ) ℕ cfg0 c)
    (Vc : (b : Ref sig .tc) → Buf (Elt F) ((c.tc : Thread nD τ).loc b))
    (hF : ∀ w, dat.arrAt w 0 = Vc (Pipeline.arrRef spec0 w))
    (s0 : dat.share (0 : Fin 17) = fullShare) (s1 : dat.share (1 : Fin 17) = fullShare) (s2 : dat.share (2 : Fin 17) = fullShare) (s3 : dat.share (3 : Fin 17) = fullShare.left) (s4 : dat.share (4 : Fin 17) = fullShare.right.left) (s5 : dat.share (5 : Fin 17) = fullShare.right.right) (s6 : dat.share (6 : Fin 17) = fullShare.left) (s7 : dat.share (7 : Fin 17) = fullShare.right.left) (s8 : dat.share (8 : Fin 17) = fullShare.right.right) (s9 : dat.share (9 : Fin 17) = fullShare.left) (s10 : dat.share (10 : Fin 17) = fullShare.right.left) (s11 : dat.share (11 : Fin 17) = fullShare.right.right) (s12 : dat.share (12 : Fin 17) = fullShare) (s13 : dat.share (13 : Fin 17) = fullShare) (s14 : dat.share (14 : Fin 17) = fullShare) (s15 : dat.share (15 : Fin 17) = fullShare) (s16 : dat.share (16 : Fin 17) = fullShare) :
    (Pipeline.arrBufs spec0 c Vc : sProp 𝕄) ⊢ dat.arrays (dat.arrAt · 0) := by
  have e : dat.arrays (dat.arrAt · 0)
      = bigSep Finset.univ fun w : Fin 17 => (((c.tc : Thread nD τ).loc (Pipeline.arrRef spec0 w)) ↦{dat.share w} Vc (Pipeline.arrRef spec0 w) : sProp 𝕄) := by
    unfold Dat.arrays
    exact bigSep_congr fun w _ => by rw [(arr_whole0 w).set_eq_univ]; dsimp only; rw [hF]
  rw [e]; unfold Pipeline.arrBufs
  rw [bigSep_eq_bigSepL_of_eq [main_arg0, main_arg2, main_arg1, main_arg4, main_arg6, main_v2, main_arg9, main_arg11, main_v5, main_v6_0, main_v6_1] (by decide) (by decide), bigSep_W0]
  show iprop((((c.tc : Thread nD τ).loc main_arg0) ↦{fullShare} Vc main_arg0) ∗ (((c.tc : Thread nD τ).loc main_arg2) ↦{fullShare} Vc main_arg2) ∗ (((c.tc : Thread nD τ).loc main_arg1) ↦{fullShare} Vc main_arg1) ∗ (((c.tc : Thread nD τ).loc main_arg4) ↦{fullShare} Vc main_arg4) ∗ (((c.tc : Thread nD τ).loc main_arg6) ↦{fullShare} Vc main_arg6) ∗ (((c.tc : Thread nD τ).loc main_v2) ↦{fullShare} Vc main_v2) ∗ (((c.tc : Thread nD τ).loc main_arg9) ↦{fullShare} Vc main_arg9) ∗ (((c.tc : Thread nD τ).loc main_arg11) ↦{fullShare} Vc main_arg11) ∗ (((c.tc : Thread nD τ).loc main_v5) ↦{fullShare} Vc main_v5) ∗ (((c.tc : Thread nD τ).loc main_v6_0) ↦{fullShare} Vc main_v6_0) ∗ (((c.tc : Thread nD τ).loc main_v6_1) ↦{fullShare} Vc main_v6_1)) ⊢ _
  simp only [s0, s1, s2, s3, s4, s5, s6, s7, s8, s9, s10, s11, s12, s13, s14, s15, s16]
  iintro ⟨H0, H1, H2, Hi, Hh, Hb, H12, H13, H14, H15, H16⟩
  ihave Hi' := (pointsTo_share (PosShare.mem_left_op_right fullShare)).1 $$ Hi
  icases Hi' with ⟨H3, Hi'⟩
  ihave Hi'' := (pointsTo_share (PosShare.mem_left_op_right fullShare.right)).1 $$ Hi'
  icases Hi'' with ⟨H4, H5⟩
  ihave Hh' := (pointsTo_share (PosShare.mem_left_op_right fullShare)).1 $$ Hh
  icases Hh' with ⟨H6, Hh'⟩
  ihave Hh'' := (pointsTo_share (PosShare.mem_left_op_right fullShare.right)).1 $$ Hh'
  icases Hh'' with ⟨H7, H8⟩
  ihave Hb' := (pointsTo_share (PosShare.mem_left_op_right fullShare)).1 $$ Hb
  icases Hb' with ⟨H9, Hb'⟩
  ihave Hb'' := (pointsTo_share (PosShare.mem_left_op_right fullShare.right)).1 $$ Hb'
  icases Hb'' with ⟨H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem deal (c : Dev nD) : (Pipeline.arrBufs spec0 c (V m c) : sProp 𝕄) ⊢ (dats m 0 c).arrays ((dats m 0 c).arrAt · 0) :=
  deal_of (dats m 0 c) (V m c) (fun _ => rfl) rfl rfl rfl rfl rfl rfl rfl rfl rfl rfl rfl rfl rfl rfl rfl rfl rfl

/-- What the run ends with: every window's array as the write-backs leave it, every other unscoped buffer as the
    region found it. -/
def RegionPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option backward.isDefEq.respectTransparency.types false in
/-- Every weakly fair execution of the program terminates without a fault, in a state as `RegionPost` says. -/
theorem run : θ_run defs (onTc (τ := τ) (main (F := F))) (s₀ m ρ) (RegionPost m) :=
  Pipeline.θ_run_region_noSem_shared cfgs (dats m) () cellOf_inj (0 : Fin 1) winFacts₀0 emb₁ defs₀ Variants.none m ρ main
    (hbody := fun c => (obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by rw [inv_eq]; iintro ⟨-, H⟩; iexact H)
    (hout := fun c => by
      rw [inv_eq]; iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- In a state as `RegionPost` says every argument array is as it was: a staged argument is never written back, and
    the others bypass the region. -/
theorem argsKept (r : PUnit × MemSt nD τ sig (Elt F)) (h : RegionPost m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 rfl (by decide))).trans (V_main_arg3 m c),
      ((h c).1 3).trans (((dats m 0 c).arrAt_in 3 rfl _).trans ((A_eq m c 3).trans (V_main_arg4 m c))),
      ((h c).2 main_arg5 (Pipeline.mem_restRefs_of main_arg5 rfl (by decide))).trans (V_main_arg5 m c),
      ((h c).1 6).trans (((dats m 0 c).arrAt_in 6 rfl _).trans ((A_eq m c 6).trans (V_main_arg6 m c))),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).1 12).trans (((dats m 0 c).arrAt_in 12 rfl _).trans ((A_eq m c 12).trans (V_main_arg9 m c))),
      ((h c).2 main_arg10 (Pipeline.mem_restRefs_of main_arg10 rfl (by decide))).trans (V_main_arg10 m c),
      ((h c).1 13).trans (((dats m 0 c).arrAt_in 13 rfl _).trans ((A_eq m c 13).trans (V_main_arg11 m c))),
      ((h c).2 main_arg12 (Pipeline.mem_restRefs_of main_arg12 rfl (by decide))).trans (V_main_arg12 m c),
      ((h c).2 main_arg13 (Pipeline.mem_restRefs_of main_arg13 rfl (by decide))).trans (V_main_arg13 m c)⟩

/-- The program runs to the end, faults nowhere, and leaves its fourteen argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => argsKept m r h c) (run m ρ)

end Cert.KernelIdeal.Cell

end
-- ==== Proof.CellSpec.lean ====
/-
  One step of the attention-merging recurrent cell, as ONE function of the argument arrays on the extended reals.

  For a hidden column `j` (of 2048) the three gates read columns `j`, `j + 2048` and `j + 4096` of the two gate
  matrices and of the three gate bias rows: `gate c = x·Wi[:,c] + h·Wh[:,c] + (bWi c + bWh c + b c)`. The input gate is
  `σ(gate j)`, the output gate `tanh(gate (j + 2048))`, the candidate `σ(gate (j + 4096))`. Each of the sixteen word
  cells gets an attention score `σ(x·Ai[:,j] + (bAi j + ab j + bAh j) + c_w·Ah[:,j])`. The new cell value is the
  average of the candidate and the sixteen word cells weighted by the exponentials of the input gate and of the
  scores, written as ONE quotient: weighted sum over the sum of the weights. The new hidden value is the output gate
  times `tanh` of the new cell value.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- A row vector of 2048 entries, a stack of sixteen such rows, a gate matrix, a gate bias row, an attention matrix,
    an attention bias row. -/
abbrev Row := (⟨2, ![1, 2048]⟩ : Shape).Idx → EReal
abbrev Words := (⟨2, ![16, 2048]⟩ : Shape).Idx → EReal
abbrev GateMat := (⟨2, ![2048, 6144]⟩ : Shape).Idx → EReal
abbrev GateBias := (⟨1, ![6144]⟩ : Shape).Idx → EReal
abbrev AttMat := (⟨2, ![2048, 2048]⟩ : Shape).Idx → EReal
abbrev AttBias := (⟨1, ![2048]⟩ : Shape).Idx → EReal

/-- The three gate columns of hidden column `j`. -/
def colI (j : Fin 2048) : Fin 6144 := ⟨j.val, by have := j.isLt; omega⟩
def colO (j : Fin 2048) : Fin 6144 := ⟨j.val + 2048, by have := j.isLt; omega⟩
def colG (j : Fin 2048) : Fin 6144 := ⟨j.val + 4096, by have := j.isLt; omega⟩

variable (x h : Row) (cw : Words) (Wi Wh : GateMat) (bWi bWh b : GateBias) (Ai Ah : AttMat) (bAi bAh ab : AttBias)

/-- The three gate biases summed, at gate column `c`. -/
def gateBias (c : Fin 6144) : EReal := (bWi (ix1 c) + bWh (ix1 c)) + b (ix1 c)

/-- The three attention biases summed, at hidden column `j`. -/
def attBias (j : Fin 2048) : EReal := (bAi (ix1 j) + ab (ix1 j)) + bAh (ix1 j)

/-- The pre-activation of gate column `c`. -/
def gate (c : Fin 6144) : EReal :=
  ((∑ k : Fin 2048, x (ix2 0 k) * Wi (ix2 k c)) + (∑ k : Fin 2048, h (ix2 0 k) * Wh (ix2 k c)))
    + gateBias bWi bWh b c

/-- The attention score of word cell `w` at hidden column `j`. -/
def score (w : Fin 16) (j : Fin 2048) : EReal :=
  Ideal.logistic (((∑ k : Fin 2048, x (ix2 0 k) * Ai (ix2 k j)) + attBias bAi bAh ab j)
    + ∑ k : Fin 2048, cw (ix2 w k) * Ah (ix2 k j))

/-- The weight of the candidate: the exponential of the input gate. -/
def gateWeight (j : Fin 2048) : EReal := Ideal.exp (Ideal.logistic (gate x h Wi Wh bWi bWh b (colI j)))

/-- The new cell value at hidden column `j`: the weighted sum over the sum of the weights. -/
def newCell (j : Fin 2048) : EReal :=
  Ideal.div
    (Ideal.logistic (gate x h Wi Wh bWi bWh b (colG j)) * gateWeight x h Wi Wh bWi bWh b j
      + ∑ w : Fin 16, cw (ix2 w j) * Ideal.exp (score x cw Ai Ah bAi bAh ab w j))
    (gateWeight x h Wi Wh bWi bWh b j + ∑ w : Fin 16, Ideal.exp (score x cw Ai Ah bAi bAh ab w j))

/-- The new hidden value at hidden column `j`. -/
def newHidden (j : Fin 2048) : EReal :=
  Ideal.tanh (gate x h Wi Wh bWi bWh b (colO j)) * Ideal.tanh (newCell x h cw Wi Wh bWi bWh b Ai Ah bAi bAh ab j)

/-- The two result rows. -/
def cellRow : Row := fun i => newCell x h cw Wi Wh bWi bWh b Ai Ah bAi bAh ab (i 1)
def hiddenRow : Row := fun i => newHidden x h cw Wi Wh bWi bWh b Ai Ah bAi bAh ab (i 1)

end Cert.CellSpec

end
-- ==== Proof.IdealValue.lean ====
/-
  What the idealized fused step leaves in its two result arrays, on the extended reals.

  A lane `q` of grid step `t` computes hidden column `128·t + q`: its gate tiles are columns `128·t + q`,
  `128·(t + 16) + q` and `128·(t + 32) + q` of the gate matrices and of the summed gate bias row, its attention tiles
  column `128·t + q` of the attention matrices and of the summed attention bias row, and its own word cells column
  `128·t + q` of the sixteen word rows. With the changes of float format the identity and every matrix product and lane
  sum an exact finite sum, the lane's stored cell value is the specification's quotient (weighted sum over sum of
  weights) at that column, and its stored hidden value the specification's. The sixteen steps' blocks tile the 2048
  columns, so each result array ends as the specification's whole row.
-/
import proofs.«149161_j44607530336618_2_alg».proof.Proof.IdealRegion
import proofs.«149161_j44607530336618_2_alg».proof.Proof.CellSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.ValueIdx
open Idealize.ShloMosaic.Pipeline (Dat Cfg Window)

/-! ## The step's operations read at a lane -/

theorem rowTile_lhs0 (i : S1x128.Idx) (q : dot_S1x2048_S2048x128_S1x128_1_0_0_1_n_n.contr.Idx) : (dot_S1x2048_S2048x128_S1x128_1_0_0_1_n_n.lhsIdx i q 0).val = (i 0).val := by
  unfold DotDims.lhsIdx
  rw [dif_neg (show ¬(0 : Fin S1x2048.rank) ∈ dot_S1x2048_S2048x128_S1x128_1_0_0_1_n_n.lhsBatch by decide), dif_pos (show (0 : Fin S1x2048.rank) ∈ dot_S1x2048_S2048x128_S1x128_1_0_0_1_n_n.lhsNonContracting by decide)]
  rfl
theorem rowTile_lhs1 (i : S1x128.Idx) (q : dot_S1x2048_S2048x128_S1x128_1_0_0_1_n_n.contr.Idx) : (dot_S1x2048_S2048x128_S1x128_1_0_0_1_n_n.lhsIdx i q 1).val = (q ⟨0, by decide⟩).val :=
  dot_S1x2048_S2048x128_S1x128_1_0_0_1_n_n.lhsIdx_val_of_single rfl i q
theorem rowTile_rhs0 (i : S1x128.Idx) (q : dot_S1x2048_S2048x128_S1x128_1_0_0_1_n_n.contr.Idx) : (dot_S1x2048_S2048x128_S1x128_1_0_0_1_n_n.rhsIdx i q 0).val = (q ⟨0, by decide⟩).val :=
  dot_S1x2048_S2048x128_S1x128_1_0_0_1_n_n.rhsIdx_val_of_single rfl i q
theorem rowTile_rhs1 (i : S1x128.Idx) (q : dot_S1x2048_S2048x128_S1x128_1_0_0_1_n_n.contr.Idx) : (dot_S1x2048_S2048x128_S1x128_1_0_0_1_n_n.rhsIdx i q 1).val = (i 1).val := by
  unfold DotDims.rhsIdx
  rw [dif_neg (show ¬(1 : Fin S2048x128.rank) ∈ dot_S1x2048_S2048x128_S1x128_1_0_0_1_n_n.rhsBatch by decide), dif_pos (show (1 : Fin S2048x128.rank) ∈ dot_S1x2048_S2048x128_S1x128_1_0_0_1_n_n.rhsNonContracting by decide)]
  rfl

/-- A product with a 2048 × 128 tile into a zero accumulator, read at row `p` and lane `q`: the plain sum over the 2048
    contracted entries. -/
theorem rowTile_at {φ₁ φ₂ : FTy} (u : FVec Ideal S1x2048 φ₁) (M : FVec Ideal S2048x128 φ₂) (p : Fin 1) (q : Fin 128) :
    matmul dot_S1x2048_S2048x128_S1x128_1_0_0_1_n_n none u M (constant (F := Ideal) S1x128 .f32 0x00000000#32) (ix2 p q)
      = ∑ k : Fin 2048, u (ix2 p k) * M (ix2 k q) := by
  simp only [matmul]
  rw [Ideal.matmul_constant_zero_apply, ← Equiv.sum_comp (ValueIdx.contrEquiv1 dot_S1x2048_S2048x128_S1x128_1_0_0_1_n_n 2048 rfl rfl).symm]
  refine Finset.sum_congr rfl fun k _ => ?_
  have hk := ValueIdx.contrEquiv1_symm_val dot_S1x2048_S2048x128_S1x128_1_0_0_1_n_n 2048 rfl rfl k
  have el : dot_S1x2048_S2048x128_S1x128_1_0_0_1_n_n.lhsIdx (ix2 p q) ((ValueIdx.contrEquiv1 dot_S1x2048_S2048x128_S1x128_1_0_0_1_n_n 2048 rfl rfl).symm k) = ix2 p k := funext fun a => Fin.ext (by
    match a with
    | ⟨0, _⟩ => exact rowTile_lhs0 _ _
    | ⟨1, _⟩ => exact (rowTile_lhs1 _ _).trans hk)
  have er : dot_S1x2048_S2048x128_S1x128_1_0_0_1_n_n.rhsIdx (ix2 p q) ((ValueIdx.contrEquiv1 dot_S1x2048_S2048x128_S1x128_1_0_0_1_n_n 2048 rfl rfl).symm k) = ix2 k q := funext fun a => Fin.ext (by
    match a with
    | ⟨0, _⟩ => exact (rowTile_rhs0 _ _).trans hk
    | ⟨1, _⟩ => exact rowTile_rhs1 _ _)
  rw [el, er]

theorem wordsTile_lhs0 (i : S16x128.Idx) (q : dot_S16x2048_S2048x128_S16x128_1_0_0_1_n_n.contr.Idx) : (dot_S16x2048_S2048x128_S16x128_1_0_0_1_n_n.lhsIdx i q 0).val = (i 0).val := by
  unfold DotDims.lhsIdx
  rw [dif_neg (show ¬(0 : Fin S16x2048.rank) ∈ dot_S16x2048_S2048x128_S16x128_1_0_0_1_n_n.lhsBatch by decide), dif_pos (show (0 : Fin S16x2048.rank) ∈ dot_S16x2048_S2048x128_S16x128_1_0_0_1_n_n.lhsNonContracting by decide)]
  rfl
theorem wordsTile_lhs1 (i : S16x128.Idx) (q : dot_S16x2048_S2048x128_S16x128_1_0_0_1_n_n.contr.Idx) : (dot_S16x2048_S2048x128_S16x128_1_0_0_1_n_n.lhsIdx i q 1).val = (q ⟨0, by decide⟩).val :=
  dot_S16x2048_S2048x128_S16x128_1_0_0_1_n_n.lhsIdx_val_of_single rfl i q
theorem wordsTile_rhs0 (i : S16x128.Idx) (q : dot_S16x2048_S2048x128_S16x128_1_0_0_1_n_n.contr.Idx) : (dot_S16x2048_S2048x128_S16x128_1_0_0_1_n_n.rhsIdx i q 0).val = (q ⟨0, by decide⟩).val :=
  dot_S16x2048_S2048x128_S16x128_1_0_0_1_n_n.rhsIdx_val_of_single rfl i q
theorem wordsTile_rhs1 (i : S16x128.Idx) (q : dot_S16x2048_S2048x128_S16x128_1_0_0_1_n_n.contr.Idx) : (dot_S16x2048_S2048x128_S16x128_1_0_0_1_n_n.rhsIdx i q 1).val = (i 1).val := by
  unfold DotDims.rhsIdx
  rw [dif_neg (show ¬(1 : Fin S2048x128.rank) ∈ dot_S16x2048_S2048x128_S16x128_1_0_0_1_n_n.rhsBatch by decide), dif_pos (show (1 : Fin S2048x128.rank) ∈ dot_S16x2048_S2048x128_S16x128_1_0_0_1_n_n.rhsNonContracting by decide)]
  rfl

/-- A product with a 2048 × 128 tile into a zero accumulator, read at row `p` and lane `q`: the plain sum over the 2048
    contracted entries. -/
theorem wordsTile_at {φ₁ φ₂ : FTy} (u : FVec Ideal S16x2048 φ₁) (M : FVec Ideal S2048x128 φ₂) (p : Fin 16) (q : Fin 128) :
    matmul dot_S16x2048_S2048x128_S16x128_1_0_0_1_n_n none u M (constant (F := Ideal) S16x128 .f32 0x00000000#32) (ix2 p q)
      = ∑ k : Fin 2048, u (ix2 p k) * M (ix2 k q) := by
  simp only [matmul]
  rw [Ideal.matmul_constant_zero_apply, ← Equiv.sum_comp (ValueIdx.contrEquiv1 dot_S16x2048_S2048x128_S16x128_1_0_0_1_n_n 2048 rfl rfl).symm]
  refine Finset.sum_congr rfl fun k _ => ?_
  have hk := ValueIdx.contrEquiv1_symm_val dot_S16x2048_S2048x128_S16x128_1_0_0_1_n_n 2048 rfl rfl k
  have el : dot_S16x2048_S2048x128_S16x128_1_0_0_1_n_n.lhsIdx (ix2 p q) ((ValueIdx.contrEquiv1 dot_S16x2048_S2048x128_S16x128_1_0_0_1_n_n 2048 rfl rfl).symm k) = ix2 p k := funext fun a => Fin.ext (by
    match a with
    | ⟨0, _⟩ => exact wordsTile_lhs0 _ _
    | ⟨1, _⟩ => exact (wordsTile_lhs1 _ _).trans hk)
  have er : dot_S16x2048_S2048x128_S16x128_1_0_0_1_n_n.rhsIdx (ix2 p q) ((ValueIdx.contrEquiv1 dot_S16x2048_S2048x128_S16x128_1_0_0_1_n_n 2048 rfl rfl).symm k) = ix2 k q := funext fun a => Fin.ext (by
    match a with
    | ⟨0, _⟩ => exact (wordsTile_rhs0 _ _).trans hk
    | ⟨1, _⟩ => exact wordsTile_rhs1 _ _)
  rw [el, er]

/-- The sum over the sixteen word rows, re-laid as a row, read at lane `q`. -/
theorem wordSum_at (v : FVec Ideal S16x128 .f32) (hφ : FKind.Formats .f32) (hacc : (0x00000000#32 : BitVec 32) = FKind.add.neutral .f32 hφ) (q : Fin 128) :
    shapeCast S1x128 (multiReduction (F := Ideal) .add [0] S128 v 0x00000000#32 reduces_S16x128_S128 hφ hacc) shapeCasts_S128_S1x128 (ix2 0 q)
      = ∑ w : Fin 16, v (ix2 w q) := by
  refine (shapeCast_apply _ shapeCasts_S128_S1x128 (ix2 0 q) (ix1 q) (by
    rw [Shape.rowMajor_val_one, Shape.rowMajor_val_two]; show q.val = (0 : Fin 1).val * 128 + q.val; simp)).trans ?_
  refine (Ideal.multiReduction_add_single v 0x00000000#32 reduces_S16x128_S128 hφ hacc (ix1 q)).trans ?_
  refine Finset.sum_congr rfl fun w _ => congrArg v (funext fun a => Fin.ext ?_)
  match a with
  | ⟨0, _⟩ => rfl
  | ⟨1, _⟩ => rfl

/-- A row spread over the sixteen word rows. -/
theorem spread_at (v : FVec Ideal S1x128 .f32) (w : Fin 16) (q : Fin 128) :
    broadcastTo S16x128 v broadcasts_S1x128_S16x128 (ix2 w q) = v (ix2 0 q) :=
  broadcastTo_apply v broadcasts_S1x128_S16x128 (ix2 w q) (ix2 0 q) (fun a => by
    match a with
    | ⟨0, _⟩ => rfl
    | ⟨1, _⟩ => rfl)

theorem logistic_at {s : Shape} {φ : FTy} (v : FVec Ideal s φ) (i : s.Idx) : logistic v i = Ideal.logistic (v i) := rfl
theorem exp_at {s : Shape} {φ : FTy} (v : FVec Ideal s φ) (i : s.Idx) : exp v i = Ideal.exp (v i) := rfl
theorem tanh_at {s : Shape} {φ : FTy} (v : FVec Ideal s φ) (i : s.Idx) : tanh v i = Ideal.tanh (v i) := rfl

theorem hz : (![0, 0] : Fin 2 → Nat) = fun _ => 0 := funext fun a => by fin_cases a <;> rfl

/-! ## One step's results at a lane

With the formats' changes the identity and every product an exact sum, a step's new cell value at lane `q` is the
quotient of the weighted sum by the sum of the weights, over the step's own blocks. -/

theorem cellOut_at (x0 : Vec Ideal S1x2048 .f32) (x1 : Vec Ideal S1x2048 .f32) (x2 : Vec Ideal S16x2048 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S2048x128 .f32) (x9 : Vec Ideal S1x128 .f32) (x10 : Vec Ideal S1x128 .f32) (x11 : Vec Ideal S1x128 .f32) (x12 : Vec Ideal S2048x128 .f32) (x13 : Vec Ideal S2048x128 .f32) (x14 : Vec Ideal S1x128 .f32) (i : grid0.Coords) (q : Fin 128) :
    cellOut x0 x1 x2 x3 x4 x5 x6 x7 x8 x9 x10 x11 x12 x13 x14 i (ix2 0 q)
      = Ideal.div
        (Ideal.logistic (((∑ k : Fin 2048, x0 (ix2 0 k) * x5 (ix2 k q)) + (∑ k : Fin 2048, x1 (ix2 0 k) * x8 (ix2 k q))) + x11 (ix2 0 q)) * Ideal.exp (Ideal.logistic (((∑ k : Fin 2048, x0 (ix2 0 k) * x3 (ix2 k q)) + (∑ k : Fin 2048, x1 (ix2 0 k) * x6 (ix2 k q))) + x9 (ix2 0 q)))
          + ∑ w : Fin 16, View.ld x2 (rSlice i) (ix2 w q) * Ideal.exp (Ideal.logistic (((∑ k : Fin 2048, x0 (ix2 0 k) * x12 (ix2 k q)) + x14 (ix2 0 q)) + ∑ k : Fin 2048, x2 (ix2 w k) * x13 (ix2 k q))))
        (Ideal.exp (Ideal.logistic (((∑ k : Fin 2048, x0 (ix2 0 k) * x3 (ix2 k q)) + (∑ k : Fin 2048, x1 (ix2 0 k) * x6 (ix2 k q))) + x9 (ix2 0 q))) + ∑ w : Fin 16, Ideal.exp (Ideal.logistic (((∑ k : Fin 2048, x0 (ix2 0 k) * x12 (ix2 k q)) + x14 (ix2 0 q)) + ∑ k : Fin 2048, x2 (ix2 w k) * x13 (ix2 k q)))) := by
  unfold cellOut k0_pay8 k0_pay6 k0_pay5 k0_pay4 k0_pay3 k0_pay2 k0_pay1
  simp only [View.ld_unit_zero (S := S1x2048) hz, View.ld_unit_zero (S := S16x2048) hz, View.ld_unit_zero (S := S2048x128) hz,
    View.ld_unit_zero (S := S1x128) hz, divf_apply, addf_apply, mulf_apply, truncf_apply, logistic_at, exp_at, tanh_at, shapeCast_self,
    rowTile_at, wordsTile_at, wordSum_at, spread_at]
  refine congrArg₂ Ideal.div (congrArg₂ (· + ·) rfl ?_) (congrArg₂ (· + ·) rfl ?_)
  · refine (wordSum_at _ _ _ q).trans ?_
    simp only [mulf_apply, addf_apply, truncf_apply, logistic_at, exp_at, rowTile_at, wordsTile_at, spread_at]
  · refine (wordSum_at _ _ _ q).trans ?_
    simp only [mulf_apply, addf_apply, truncf_apply, logistic_at, exp_at, rowTile_at, wordsTile_at, spread_at]

theorem hiddenOut_at (x0 : Vec Ideal S1x2048 .f32) (x1 : Vec Ideal S1x2048 .f32) (x2 : Vec Ideal S16x2048 .f32) (x3 : Vec Ideal S2048x128 .f32) (x4 : Vec Ideal S2048x128 .f32) (x5 : Vec Ideal S2048x128 .f32) (x6 : Vec Ideal S2048x128 .f32) (x7 : Vec Ideal S2048x128 .f32) (x8 : Vec Ideal S2048x128 .f32) (x9 : Vec Ideal S1x128 .f32) (x10 : Vec Ideal S1x128 .f32) (x11 : Vec Ideal S1x128 .f32) (x12 : Vec Ideal S2048x128 .f32) (x13 : Vec Ideal S2048x128 .f32) (x14 : Vec Ideal S1x128 .f32) (i : grid0.Coords) (q : Fin 128) :
    hiddenOut x0 x1 x2 x3 x4 x5 x6 x7 x8 x9 x10 x11 x12 x13 x14 i (ix2 0 q)
      = Ideal.tanh (((∑ k : Fin 2048, x0 (ix2 0 k) * x4 (ix2 k q)) + (∑ k : Fin 2048, x1 (ix2 0 k) * x7 (ix2 k q))) + x10 (ix2 0 q)) * Ideal.tanh (cellOut x0 x1 x2 x3 x4 x5 x6 x7 x8 x9 x10 x11 x12 x13 x14 i (ix2 0 q)) := by
  unfold hiddenOut k0_pay9
  rw [show k0_pay8 (k0_pay1 (View.ld x0 rRow)) (k0_pay2 (View.ld x1 rRow)) (k0_pay3 (View.ld x2 rWords)) (k0_pay4 (View.ld x5 rTile)) (k0_pay5 (View.ld x8 rTile))
    (k0_pay6 (View.ld x0 rRow) (View.ld x1 rRow) (View.ld x3 rTile) (View.ld x6 rTile) (View.ld x9 rLane)) (View.ld x11 rLane) (View.ld x12 rTile) (View.ld x13 rTile) (View.ld x14 rLane) (View.ld x2 (rSlice i)) = cellOut x0 x1 x2 x3 x4 x5 x6 x7 x8 x9 x10 x11 x12 x13 x14 i from rfl]
  unfold k0_pay7 k0_pay2 k0_pay1
  simp only [View.ld_unit_zero (S := S1x2048) hz, View.ld_unit_zero (S := S16x2048) hz, View.ld_unit_zero (S := S2048x128) hz,
    View.ld_unit_zero (S := S1x128) hz, divf_apply, addf_apply, mulf_apply, truncf_apply, logistic_at, exp_at, tanh_at, shapeCast_self,
    rowTile_at, wordsTile_at, wordSum_at, spread_at]

/-! ## The blocks as parts of the arrays -/

variable (m : (ℓ : Loc nD τ sig) → Buf (Elt Ideal) ℓ)

/-- The hidden column that lane `q` of grid step `t` computes. -/
def laneCol (t : Fin cfg0.N) (q : Fin 128) : Fin 2048 := ⟨128 * t.val + q.val, by have := t.isLt; have := q.isLt; have h16 : cfg0.N = 16 := N_0; omega⟩

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = t.val + 0 :=
  (by decide +kernel : ∀ t : Fin grid0.N, _)
theorem idx_4 : ∀ t : Fin cfg0.N, win0_4.index t (0 : Fin 2) = 0 ∧ win0_4.index t (1 : Fin 2) = t.val + 16 :=
  (by decide +kernel : ∀ t : Fin grid0.N, _)
theorem idx_5 : ∀ t : Fin cfg0.N, win0_5.index t (0 : Fin 2) = 0 ∧ win0_5.index t (1 : Fin 2) = t.val + 32 :=
  (by decide +kernel : ∀ t : Fin grid0.N, _)
theorem idx_6 : ∀ t : Fin cfg0.N, win0_6.index t (0 : Fin 2) = 0 ∧ win0_6.index t (1 : Fin 2) = t.val + 0 :=
  (by decide +kernel : ∀ t : Fin grid0.N, _)
theorem idx_7 : ∀ t : Fin cfg0.N, win0_7.index t (0 : Fin 2) = 0 ∧ win0_7.index t (1 : Fin 2) = t.val + 16 :=
  (by decide +kernel : ∀ t : Fin grid0.N, _)
theorem idx_8 : ∀ t : Fin cfg0.N, win0_8.index t (0 : Fin 2) = 0 ∧ win0_8.index t (1 : Fin 2) = t.val + 32 :=
  (by decide +kernel : ∀ t : Fin grid0.N, _)
theorem idx_9 : ∀ t : Fin cfg0.N, win0_9.index t (0 : Fin 2) = 0 ∧ win0_9.index t (1 : Fin 2) = t.val + 0 :=
  (by decide +kernel : ∀ t : Fin grid0.N, _)
theorem idx_10 : ∀ t : Fin cfg0.N, win0_10.index t (0 : Fin 2) = 0 ∧ win0_10.index t (1 : Fin 2) = t.val + 16 :=
  (by decide +kernel : ∀ t : Fin grid0.N, _)
theorem idx_11 : ∀ t : Fin cfg0.N, win0_11.index t (0 : Fin 2) = 0 ∧ win0_11.index t (1 : Fin 2) = t.val + 32 :=
  (by decide +kernel : ∀ t : Fin grid0.N, _)
theorem idx_12 : ∀ t : Fin cfg0.N, win0_12.index t (0 : Fin 2) = 0 ∧ win0_12.index t (1 : Fin 2) = t.val + 0 :=
  (by decide +kernel : ∀ t : Fin grid0.N, _)
theorem idx_13 : ∀ t : Fin cfg0.N, win0_13.index t (0 : Fin 2) = 0 ∧ win0_13.index t (1 : Fin 2) = t.val + 0 :=
  (by decide +kernel : ∀ t : Fin grid0.N, _)
theorem idx_14 : ∀ t : Fin cfg0.N, win0_14.index t (0 : Fin 2) = 0 ∧ win0_14.index t (1 : Fin 2) = t.val + 0 :=
  (by decide +kernel : ∀ t : Fin grid0.N, _)
theorem idx_15 : ∀ t : Fin cfg0.N, win0_15.index t (0 : Fin 2) = 0 ∧ win0_15.index t (1 : Fin 2) = t.val + 0 :=
  (by decide +kernel : ∀ t : Fin grid0.N, _)
theorem idx_16 : ∀ t : Fin cfg0.N, win0_16.index t (0 : Fin 2) = 0 ∧ win0_16.index t (1 : Fin 2) = t.val + 0 :=
  (by decide +kernel : ∀ t : Fin grid0.N, _)

/-- The step's own columns of the word cells start at 128 times the step's number. -/
theorem sliceStart : ∀ t : Fin cfg0.N, k0_off1 (grid0.coords t) = ![0, 128 * t.val] :=
  (by decide +kernel : ∀ t : Fin grid0.N, _)

/-- Window 0's block is the whole array at every step. -/
theorem blk_0 (c : Dev nD) (t : Fin cfg0.N) (p : Fin 1) (k : Fin 2048) : iblk m c 0 t (ix2 p k) = V m c main_arg0 (ix2 p k) := by
  obtain ⟨e0, e1⟩ := idx_0 t
  show V m c main_arg0 (((cfg0.win 0).blk t).view.emb (ix2 p k)) = _
  refine congrArg _ (funext fun a => Fin.ext ?_)
  match a with
  | ⟨0, _⟩ => show win0_0.index t (0 : Fin 2) * 1 + 1 * p.val = p.val; omega
  | ⟨1, _⟩ => show win0_0.index t (1 : Fin 2) * 2048 + 1 * k.val = k.val; omega

/-- Window 1's block is the whole array at every step. -/
theorem blk_1 (c : Dev nD) (t : Fin cfg0.N) (p : Fin 1) (k : Fin 2048) : iblk m c 1 t (ix2 p k) = V m c main_arg2 (ix2 p k) := by
  obtain ⟨e0, e1⟩ := idx_1 t
  show V m c main_arg2 (((cfg0.win 1).blk t).view.emb (ix2 p k)) = _
  refine congrArg _ (funext fun a => Fin.ext ?_)
  match a with
  | ⟨0, _⟩ => show win0_1.index t (0 : Fin 2) * 1 + 1 * p.val = p.val; omega
  | ⟨1, _⟩ => show win0_1.index t (1 : Fin 2) * 2048 + 1 * k.val = k.val; omega

/-- Window 2's block is the whole array at every step. -/
theorem blk_2 (c : Dev nD) (t : Fin cfg0.N) (p : Fin 16) (k : Fin 2048) : iblk m c 2 t (ix2 p k) = V m c main_arg1 (ix2 p k) := by
  obtain ⟨e0, e1⟩ := idx_2 t
  show V m c main_arg1 (((cfg0.win 2).blk t).view.emb (ix2 p k)) = _
  refine congrArg _ (funext fun a => Fin.ext ?_)
  match a with
  | ⟨0, _⟩ => show win0_2.index t (0 : Fin 2) * 16 + 1 * p.val = p.val; omega
  | ⟨1, _⟩ => show win0_2.index t (1 : Fin 2) * 2048 + 1 * k.val = k.val; omega

/-- Window 3's block at step `t`, lane `q`, is its array at the column that lane computes (in the gate's third of the 6144 columns). -/
theorem blk_3 (c : Dev nD) (t : Fin cfg0.N) (p : Fin 2048) (q : Fin 128) :
    iblk m c 3 t (ix2 p q) = V m c main_arg4 (ix2 p (CellSpec.colI (laneCol t q))) := by
  obtain ⟨e0, e1⟩ := idx_3 t
  show V m c main_arg4 (((cfg0.win 3).blk t).view.emb (ix2 p q)) = _
  refine congrArg _ (funext fun a => Fin.ext ?_)
  match a with
  | ⟨0, _⟩ => show win0_3.index t (0 : Fin 2) * 2048 + 1 * p.val = p.val; omega
  | ⟨1, _⟩ => show win0_3.index t (1 : Fin 2) * 128 + 1 * q.val = 128 * t.val + q.val; omega

/-- Window 4's block at step `t`, lane `q`, is its array at the column that lane computes (in the gate's third of the 6144 columns). -/
theorem blk_4 (c : Dev nD) (t : Fin cfg0.N) (p : Fin 2048) (q : Fin 128) :
    iblk m c 4 t (ix2 p q) = V m c main_arg4 (ix2 p (CellSpec.colO (laneCol t q))) := by
  obtain ⟨e0, e1⟩ := idx_4 t
  show V m c main_arg4 (((cfg0.win 4).blk t).view.emb (ix2 p q)) = _
  refine congrArg _ (funext fun a => Fin.ext ?_)
  match a with
  | ⟨0, _⟩ => show win0_4.index t (0 : Fin 2) * 2048 + 1 * p.val = p.val; omega
  | ⟨1, _⟩ => show win0_4.index t (1 : Fin 2) * 128 + 1 * q.val = 128 * t.val + q.val + 2048; omega

/-- Window 5's block at step `t`, lane `q`, is its array at the column that lane computes (in the gate's third of the 6144 columns). -/
theorem blk_5 (c : Dev nD) (t : Fin cfg0.N) (p : Fin 2048) (q : Fin 128) :
    iblk m c 5 t (ix2 p q) = V m c main_arg4 (ix2 p (CellSpec.colG (laneCol t q))) := by
  obtain ⟨e0, e1⟩ := idx_5 t
  show V m c main_arg4 (((cfg0.win 5).blk t).view.emb (ix2 p q)) = _
  refine congrArg _ (funext fun a => Fin.ext ?_)
  match a with
  | ⟨0, _⟩ => show win0_5.index t (0 : Fin 2) * 2048 + 1 * p.val = p.val; omega
  | ⟨1, _⟩ => show win0_5.index t (1 : Fin 2) * 128 + 1 * q.val = 128 * t.val + q.val + 4096; omega

/-- Window 6's block at step `t`, lane `q`, is its array at the column that lane computes (in the gate's third of the 6144 columns). -/
theorem blk_6 (c : Dev nD) (t : Fin cfg0.N) (p : Fin 2048) (q : Fin 128) :
    iblk m c 6 t (ix2 p q) = V m c main_arg6 (ix2 p (CellSpec.colI (laneCol t q))) := by
  obtain ⟨e0, e1⟩ := idx_6 t
  show V m c main_arg6 (((cfg0.win 6).blk t).view.emb (ix2 p q)) = _
  refine congrArg _ (funext fun a => Fin.ext ?_)
  match a with
  | ⟨0, _⟩ => show win0_6.index t (0 : Fin 2) * 2048 + 1 * p.val = p.val; omega
  | ⟨1, _⟩ => show win0_6.index t (1 : Fin 2) * 128 + 1 * q.val = 128 * t.val + q.val; omega

/-- Window 7's block at step `t`, lane `q`, is its array at the column that lane computes (in the gate's third of the 6144 columns). -/
theorem blk_7 (c : Dev nD) (t : Fin cfg0.N) (p : Fin 2048) (q : Fin 128) :
    iblk m c 7 t (ix2 p q) = V m c main_arg6 (ix2 p (CellSpec.colO (laneCol t q))) := by
  obtain ⟨e0, e1⟩ := idx_7 t
  show V m c main_arg6 (((cfg0.win 7).blk t).view.emb (ix2 p q)) = _
  refine congrArg _ (funext fun a => Fin.ext ?_)
  match a with
  | ⟨0, _⟩ => show win0_7.index t (0 : Fin 2) * 2048 + 1 * p.val = p.val; omega
  | ⟨1, _⟩ => show win0_7.index t (1 : Fin 2) * 128 + 1 * q.val = 128 * t.val + q.val + 2048; omega

/-- Window 8's block at step `t`, lane `q`, is its array at the column that lane computes (in the gate's third of the 6144 columns). -/
theorem blk_8 (c : Dev nD) (t : Fin cfg0.N) (p : Fin 2048) (q : Fin 128) :
    iblk m c 8 t (ix2 p q) = V m c main_arg6 (ix2 p (CellSpec.colG (laneCol t q))) := by
  obtain ⟨e0, e1⟩ := idx_8 t
  show V m c main_arg6 (((cfg0.win 8).blk t).view.emb (ix2 p q)) = _
  refine congrArg _ (funext fun a => Fin.ext ?_)
  match a with
  | ⟨0, _⟩ => show win0_8.index t (0 : Fin 2) * 2048 + 1 * p.val = p.val; omega
  | ⟨1, _⟩ => show win0_8.index t (1 : Fin 2) * 128 + 1 * q.val = 128 * t.val + q.val + 4096; omega

/-- Window 9's block at step `t`, lane `q`, is its array at the column that lane computes (in the gate's third of the 6144 columns). -/
theorem blk_9 (c : Dev nD) (t : Fin cfg0.N) (p : Fin 1) (q : Fin 128) :
    iblk m c 9 t (ix2 p q) = V m c main_v2 (ix2 p (CellSpec.colI (laneCol t q))) := by
  obtain ⟨e0, e1⟩ := idx_9 t
  show V m c main_v2 (((cfg0.win 9).blk t).view.emb (ix2 p q)) = _
  refine congrArg _ (funext fun a => Fin.ext ?_)
  match a with
  | ⟨0, _⟩ => show win0_9.index t (0 : Fin 2) * 1 + 1 * p.val = p.val; omega
  | ⟨1, _⟩ => show win0_9.index t (1 : Fin 2) * 128 + 1 * q.val = 128 * t.val + q.val; omega

/-- Window 10's block at step `t`, lane `q`, is its array at the column that lane computes (in the gate's third of the 6144 columns). -/
theorem blk_10 (c : Dev nD) (t : Fin cfg0.N) (p : Fin 1) (q : Fin 128) :
    iblk m c 10 t (ix2 p q) = V m c main_v2 (ix2 p (CellSpec.colO (laneCol t q))) := by
  obtain ⟨e0, e1⟩ := idx_10 t
  show V m c main_v2 (((cfg0.win 10).blk t).view.emb (ix2 p q)) = _
  refine congrArg _ (funext fun a => Fin.ext ?_)
  match a with
  | ⟨0, _⟩ => show win0_10.index t (0 : Fin 2) * 1 + 1 * p.val = p.val; omega
  | ⟨1, _⟩ => show win0_10.index t (1 : Fin 2) * 128 + 1 * q.val = 128 * t.val + q.val + 2048; omega

/-- Window 11's block at step `t`, lane `q`, is its array at the column that lane computes (in the gate's third of the 6144 columns). -/
theorem blk_11 (c : Dev nD) (t : Fin cfg0.N) (p : Fin 1) (q : Fin 128) :
    iblk m c 11 t (ix2 p q) = V m c main_v2 (ix2 p (CellSpec.colG (laneCol t q))) := by
  obtain ⟨e0, e1⟩ := idx_11 t
  show V m c main_v2 (((cfg0.win 11).blk t).view.emb (ix2 p q)) = _
  refine congrArg _ (funext fun a => Fin.ext ?_)
  match a with
  | ⟨0, _⟩ => show win0_11.index t (0 : Fin 2) * 1 + 1 * p.val = p.val; omega
  | ⟨1, _⟩ => show win0_11.index t (1 : Fin 2) * 128 + 1 * q.val = 128 * t.val + q.val + 4096; omega

/-- Window 12's block at step `t`, lane `q`, is its array at the column that lane computes. -/
theorem blk_12 (c : Dev nD) (t : Fin cfg0.N) (p : Fin 2048) (q : Fin 128) :
    iblk m c 12 t (ix2 p q) = V m c main_arg9 (ix2 p (laneCol t q)) := by
  obtain ⟨e0, e1⟩ := idx_12 t
  show V m c main_arg9 (((cfg0.win 12).blk t).view.emb (ix2 p q)) = _
  refine congrArg _ (funext fun a => Fin.ext ?_)
  match a with
  | ⟨0, _⟩ => show win0_12.index t (0 : Fin 2) * 2048 + 1 * p.val = p.val; omega
  | ⟨1, _⟩ => show win0_12.index t (1 : Fin 2) * 128 + 1 * q.val = 128 * t.val + q.val; omega

/-- Window 13's block at step `t`, lane `q`, is its array at the column that lane computes. -/
theorem blk_13 (c : Dev nD) (t : Fin cfg0.N) (p : Fin 2048) (q : Fin 128) :
    iblk m c 13 t (ix2 p q) = V m c main_arg11 (ix2 p (laneCol t q)) := by
  obtain ⟨e0, e1⟩ := idx_13 t
  show V m c main_arg11 (((cfg0.win 13).blk t).view.emb (ix2 p q)) = _
  refine congrArg _ (funext fun a => Fin.ext ?_)
  match a with
  | ⟨0, _⟩ => show win0_13.index t (0 : Fin 2) * 2048 + 1 * p.val = p.val; omega
  | ⟨1, _⟩ => show win0_13.index t (1 : Fin 2) * 128 + 1 * q.val = 128 * t.val + q.val; omega

/-- Window 14's block at step `t`, lane `q`, is its array at the column that lane computes. -/
theorem blk_14 (c : Dev nD) (t : Fin cfg0.N) (p : Fin 1) (q : Fin 128) :
    iblk m c 14 t (ix2 p q) = V m c main_v5 (ix2 p (laneCol t q)) := by
  obtain ⟨e0, e1⟩ := idx_14 t
  show V m c main_v5 (((cfg0.win 14).blk t).view.emb (ix2 p q)) = _
  refine congrArg _ (funext fun a => Fin.ext ?_)
  match a with
  | ⟨0, _⟩ => show win0_14.index t (0 : Fin 2) * 1 + 1 * p.val = p.val; omega
  | ⟨1, _⟩ => show win0_14.index t (1 : Fin 2) * 128 + 1 * q.val = 128 * t.val + q.val; omega

/-- The step's own 128 columns of the word cells, read off the whole word block. -/
theorem ownWords (c : Dev nD) (t : Fin cfg0.N) (w : Fin 16) (q : Fin 128) :
    View.ld (iblk m c 2 t) (rSlice (grid0.coords t)) (ix2 w q) = V m c main_arg1 (ix2 w (laneCol t q)) := by
  obtain ⟨e0, e1⟩ := idx_2 t
  have es := sliceStart t
  show V m c main_arg1 (((cfg0.win 2).blk t).view.emb ((rSlice (grid0.coords t)).emb (ix2 w q))) = _
  refine congrArg _ (funext fun a => Fin.ext ?_)
  match a with
  | ⟨0, _⟩ =>
    show win0_2.index t (0 : Fin 2) * 16 + 1 * (k0_off1 (grid0.coords t) 0 + 1 * w.val) = w.val
    rw [es]; show win0_2.index t (0 : Fin 2) * 16 + 1 * (0 + 1 * w.val) = w.val; omega
  | ⟨1, _⟩ =>
    show win0_2.index t (1 : Fin 2) * 2048 + 1 * (k0_off1 (grid0.coords t) 1 + 1 * q.val) = 128 * t.val + q.val
    rw [es]; show win0_2.index t (1 : Fin 2) * 2048 + 1 * (128 * t.val + 1 * q.val) = 128 * t.val + q.val; omega

/-! ## The two bias rows summed before the region -/

theorem gateBias_eq (c : Dev nD) :
    @Eq (S1x6144.Idx → EReal) (V m c main_v2)
      (shapeCast S1x6144 (addf (F := Ideal) (φ := .f32) (addf (F := Ideal) (φ := .f32) (m ((c : Thread nD τ).loc main_arg5)) (m ((c : Thread nD τ).loc main_arg7))) (m ((c : Thread nD τ).loc main_arg8))) shapeCasts_S6144_S1x6144) := by
  dsimp only [V, hostOps0]; after_results; rfl

theorem attBias_eq (c : Dev nD) :
    @Eq (S1x2048.Idx → EReal) (V m c main_v5)
      (shapeCast S1x2048 (addf (F := Ideal) (φ := .f32) (addf (F := Ideal) (φ := .f32) (m ((c : Thread nD τ).loc main_arg10)) (m ((c : Thread nD τ).loc main_arg13))) (m ((c : Thread nD τ).loc main_arg12))) shapeCasts_S2048_S1x2048) := by
  dsimp only [V, hostOps0]; after_results; rfl

/-- The summed gate bias at column `j`. -/
theorem gateBias_at (c : Dev nD) (j : Fin 6144) :
    (V m c main_v2 : S1x6144.Idx → EReal) (ix2 0 j) = CellSpec.gateBias (m ((c : Thread nD τ).loc main_arg5)) (m ((c : Thread nD τ).loc main_arg7)) (m ((c : Thread nD τ).loc main_arg8)) j := by
  rw [gateBias_eq]
  exact shapeCast_apply _ shapeCasts_S6144_S1x6144 (ix2 0 j) (ix1 j) (by
    rw [Shape.rowMajor_val_one, Shape.rowMajor_val_two]; show j.val = (0 : Fin 1).val * 6144 + j.val; simp)

/-- The summed attention bias at column `j`. -/
theorem attBias_at (c : Dev nD) (j : Fin 2048) :
    (V m c main_v5 : S1x2048.Idx → EReal) (ix2 0 j) = CellSpec.attBias (m ((c : Thread nD τ).loc main_arg10)) (m ((c : Thread nD τ).loc main_arg12)) (m ((c : Thread nD τ).loc main_arg13)) j := by
  rw [attBias_eq]
  exact shapeCast_apply _ shapeCasts_S2048_S1x2048 (ix2 0 j) (ix1 j) (by
    rw [Shape.rowMajor_val_one, Shape.rowMajor_val_two]; show j.val = (0 : Fin 1).val * 2048 + j.val; simp)

/-! ## A step's lane is the specification's column -/

/-- Lane `q` of step `t` stores the specification's new cell value of column `128·t + q`. -/
theorem cellLane (c : Dev nD) (t : Fin cfg0.N) (q : Fin 128) :
    cellOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t) (ix2 0 q)
      = CellSpec.newCell (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) (laneCol t q) := by
  rw [cellOut_at]
  unfold CellSpec.newCell CellSpec.gateWeight CellSpec.gate CellSpec.score
  simp only [blk_0 m c t, blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, ownWords m c t, gateBias_at m c, attBias_at m c, V_main_arg0 m c, V_main_arg1 m c, V_main_arg2 m c, V_main_arg4 m c, V_main_arg6 m c, V_main_arg9 m c, V_main_arg11 m c]

/-- … and the specification's new hidden value of that column. -/
theorem hiddenLane (c : Dev nD) (t : Fin cfg0.N) (q : Fin 128) :
    hiddenOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (grid0.coords t) (ix2 0 q)
      = CellSpec.newHidden (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) (laneCol t q) := by
  rw [hiddenOut_at, cellLane m c t q]
  unfold CellSpec.newHidden CellSpec.gate
  simp only [blk_0 m c t, blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, gateBias_at m c, V_main_arg0 m c, V_main_arg1 m c, V_main_arg2 m c, V_main_arg4 m c, V_main_arg6 m c, V_main_arg9 m c, V_main_arg11 m c]

/-! ## From the sixteen steps to the two result rows -/

/-- The specification's two rows of the argument arrays on core `c`. -/
abbrev cellOf (c : Dev nD) : S1x2048.Idx → EReal := CellSpec.cellRow (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13))
abbrev hiddenOf (c : Dev nD) : S1x2048.Idx → EReal := CellSpec.hiddenRow (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13))

/-- Step `t` writes back block `t` of the cell row. -/
theorem cellFlushed (c : Dev nD) (t : Fin cfg0.N) :
    (dats m 0 c).flushed 16 t = ((cfg0.win 16).blk t).view.read (Elt Ideal) (cellOf m c) := by
  show (cfg0.win 16).cut (grid0.coords t) ((dats m 0 c).after 16 t) = _
  rw [after_16, View.canon_unit_zero hz]
  funext j
  obtain ⟨p, q, rfl⟩ : ∃ (p : Fin 1) (q : Fin 128), j = ix2 p q := ⟨j 0, j 1, eq_ix2 j⟩
  obtain rfl : p = 0 := Subsingleton.elim _ _
  refine (cellLane m c t q).trans ?_
  obtain ⟨e0, e1⟩ := idx_16 t
  show CellSpec.newCell (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) (laneCol t q)
    = CellSpec.newCell (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) ((((cfg0.win 16).blk t).view.emb (ix2 0 q)) 1)
  refine congrArg _ (Fin.ext ?_)
  show 128 * t.val + q.val = win0_16.index t (1 : Fin 2) * 128 + 1 * q.val
  omega

theorem mem_out16 (t : Fin cfg0.N) (i : S1x2048.Idx) :
    i ∈ ((cfg0.win 16).blk t).view.set ↔ ∀ a : Fin 2, win0_16.index t a * S1x128.size a ≤ (i a).val ∧ (i a).val < win0_16.index t a * S1x128.size a + S1x128.size a := by
  show i ∈ ((View.whole main_v6_1).slice (win0_16.rect t)).set ↔ _
  rw [View.set_slice_whole, Rect.mem_set_unit]
  exact Iff.rfl

/-- Column `j` of the row is written by step `j / 128`. -/
theorem covered16 (i : S1x2048.Idx) : ∃ t : Fin cfg0.N, (cfg0.win 16).flush t = true ∧ i ∈ ((cfg0.win 16).blk t).view.set := by
  have hi0 : (i 0).val < 1 := (i 0).isLt
  have hi1 : (i 1).val < 2048 := (i 1).isLt
  have h16 : cfg0.N = 16 := N_0
  have hN : grid0.N = 16 := N_0
  refine ⟨⟨(i 1).val / 128, by omega⟩, flush0_16 _, ?_⟩
  rw [mem_out16]
  obtain ⟨e0, e1⟩ := idx_16 ⟨(i 1).val / 128, by omega⟩
  have e1' : win0_16.index ⟨(i 1).val / 128, by omega⟩ (1 : Fin 2) = (i 1).val / 128 := e1
  intro a
  match a with
  | ⟨0, _⟩ => show win0_16.index ⟨(i 1).val / 128, by omega⟩ (0 : Fin 2) * 1 ≤ (i 0).val ∧ (i 0).val < win0_16.index ⟨(i 1).val / 128, by omega⟩ (0 : Fin 2) * 1 + 1; omega
  | ⟨1, _⟩ => show win0_16.index ⟨(i 1).val / 128, by omega⟩ (1 : Fin 2) * 128 ≤ (i 1).val ∧ (i 1).val < win0_16.index ⟨(i 1).val / 128, by omega⟩ (1 : Fin 2) * 128 + 128; omega

/-- After the sixteen steps the array holds the whole cell row of the specification. -/
theorem cellFinal (c : Dev nD) : (dats m 0 c).arrAt 16 cfg0.N = cellOf m c :=
  (dats m 0 c).arrAt_eq_of_cover 16 (cellOf m c) (fun t _ => cellFlushed m c t) (covered16)

/-- Step `t` writes back block `t` of the hidden row. -/
theorem hiddenFlushed (c : Dev nD) (t : Fin cfg0.N) :
    (dats m 0 c).flushed 15 t = ((cfg0.win 15).blk t).view.read (Elt Ideal) (hiddenOf m c) := by
  show (cfg0.win 15).cut (grid0.coords t) ((dats m 0 c).after 15 t) = _
  rw [after_15, View.canon_unit_zero hz]
  funext j
  obtain ⟨p, q, rfl⟩ : ∃ (p : Fin 1) (q : Fin 128), j = ix2 p q := ⟨j 0, j 1, eq_ix2 j⟩
  obtain rfl : p = 0 := Subsingleton.elim _ _
  refine (hiddenLane m c t q).trans ?_
  obtain ⟨e0, e1⟩ := idx_15 t
  show CellSpec.newHidden (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) (laneCol t q)
    = CellSpec.newHidden (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) (m ((c : Thread nD τ).loc main_arg11)) (m ((c : Thread nD τ).loc main_arg10)) (m ((c : Thread nD τ).loc main_arg12)) (m ((c : Thread nD τ).loc main_arg13)) ((((cfg0.win 15).blk t).view.emb (ix2 0 q)) 1)
  refine congrArg _ (Fin.ext ?_)
  show 128 * t.val + q.val = win0_15.index t (1 : Fin 2) * 128 + 1 * q.val
  omega

theorem mem_out15 (t : Fin cfg0.N) (i : S1x2048.Idx) :
    i ∈ ((cfg0.win 15).blk t).view.set ↔ ∀ a : Fin 2, win0_15.index t a * S1x128.size a ≤ (i a).val ∧ (i a).val < win0_15.index t a * S1x128.size a + S1x128.size a := by
  show i ∈ ((View.whole main_v6_0).slice (win0_15.rect t)).set ↔ _
  rw [View.set_slice_whole, Rect.mem_set_unit]
  exact Iff.rfl

/-- Column `j` of the row is written by step `j / 128`. -/
theorem covered15 (i : S1x2048.Idx) : ∃ t : Fin cfg0.N, (cfg0.win 15).flush t = true ∧ i ∈ ((cfg0.win 15).blk t).view.set := by
  have hi0 : (i 0).val < 1 := (i 0).isLt
  have hi1 : (i 1).val < 2048 := (i 1).isLt
  have h16 : cfg0.N = 16 := N_0
  have hN : grid0.N = 16 := N_0
  refine ⟨⟨(i 1).val / 128, by omega⟩, flush0_15 _, ?_⟩
  rw [mem_out15]
  obtain ⟨e0, e1⟩ := idx_15 ⟨(i 1).val / 128, by omega⟩
  have e1' : win0_15.index ⟨(i 1).val / 128, by omega⟩ (1 : Fin 2) = (i 1).val / 128 := e1
  intro a
  match a with
  | ⟨0, _⟩ => show win0_15.index ⟨(i 1).val / 128, by omega⟩ (0 : Fin 2) * 1 ≤ (i 0).val ∧ (i 0).val < win0_15.index ⟨(i 1).val / 128, by omega⟩ (0 : Fin 2) * 1 + 1; omega
  | ⟨1, _⟩ => show win0_15.index ⟨(i 1).val / 128, by omega⟩ (1 : Fin 2) * 128 ≤ (i 1).val ∧ (i 1).val < win0_15.index ⟨(i 1).val / 128, by omega⟩ (1 : Fin 2) * 128 + 128; omega

/-- After the sixteen steps the array holds the whole hidden row of the specification. -/
theorem hiddenFinal (c : Dev nD) : (dats m 0 c).arrAt 15 cfg0.N = hiddenOf m c :=
  (dats m 0 c).arrAt_eq_of_cover 15 (hiddenOf m c) (fun t _ => hiddenFlushed m c t) (covered15)

/-- The idealized program runs to the end with the two results at the specification's rows and its arguments as
    they were. -/
theorem run (ρ : Dev nD → PrngReg) : θ_run defs (onTc (τ := τ) (main (F := Ideal))) ⟨m, fun _ => 0, ρ⟩ (fun r => ∀ c : Dev nD,
      r.2.mem ((c.tc : Thread nD τ).loc main_v6_0) = hiddenOf m c
      ∧ r.2.mem ((c.tc : Thread nD τ).loc main_v6_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 15).trans (hiddenFinal m c), ((h c).1 16).trans (cellFinal m c), argsKept m r h c⟩)
    (Cell.run m ρ)

end Cert.KernelIdeal.CellValue

end
-- ==== Proof.RefRows.lean ====
/-
  The reference's two result rows, read column by column on the extended reals, are the specification's rows.

  The reference adds each bias to its own product before summing the two products, stacks the input gate's row on
  top of the sixteen score rows (and the candidate's row on top of the sixteen word rows), exponentiates, divides
  EVERY one of the seventeen entries of a column by the column's sum, multiplies and sums. The gates and scores agree
  with the specification by commutativity and associativity of addition alone. The last step moves the common divisor
  out of the seventeen-term sum, `∑ m_r·(e_r / S) = (∑ m_r·e_r) / S`, which needs every `m_r`, `e_r` and `S` finite
  and `S ≠ 0`: the exponentials of the gate and of the scores are finite and positive whatever their arguments
  (a sigmoid is between 0 and 1), the candidate is a sigmoid, and the word cells are finite inputs.
-/
import proofs.«149161_j44607530336618_2_alg».proof.Proof.Gen.ReferenceIdeal.Read
import proofs.«149161_j44607530336618_2_alg».proof.Proof.CellSpec
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

namespace Cert.ReferenceIdeal.CellRef

open Cert.ReferenceIdeal Cert.ReferenceIdeal.Gen Cert.ReferenceIdeal.Read
open Idealize.ShloMosaic Idealize.ShloMosaic.ValueIdx

variable (x0 : (⟨S1x2048, .f32⟩ : BufTy).Contents (Elt Ideal)) (x1 : (⟨S16x2048, .f32⟩ : BufTy).Contents (Elt Ideal))
  (x2 : (⟨S1x2048, .f32⟩ : BufTy).Contents (Elt Ideal)) (x4 : (⟨S2048x6144, .f32⟩ : BufTy).Contents (Elt Ideal))
  (x5 : (⟨S6144, .f32⟩ : BufTy).Contents (Elt Ideal)) (x6 : (⟨S2048x6144, .f32⟩ : BufTy).Contents (Elt Ideal))
  (x7 x8 : (⟨S6144, .f32⟩ : BufTy).Contents (Elt Ideal)) (x9 : (⟨S2048x2048, .f32⟩ : BufTy).Contents (Elt Ideal))
  (x10 : (⟨S2048, .f32⟩ : BufTy).Contents (Elt Ideal)) (x11 : (⟨S2048x2048, .f32⟩ : BufTy).Contents (Elt Ideal))
  (x12 x13 : (⟨S2048, .f32⟩ : BufTy).Contents (Elt Ideal))

/-! ## The gates -/

/-- The reference's pre-activation at gate column `c` is the specification's: the same two sums and three biases,
    added in another order. -/
theorem gate_at (c : Fin 6144) : val_main_v8 (F := Ideal) x0 x2 x4 x5 x6 x7 x8 (ix2 0 c) = CellSpec.gate x0 x2 x4 x6 x5 x7 x8 c := by
  rw [val_main_v8_apply, val_main_v6_apply, val_main_v2_apply, val_main_v5_apply, val_main_v0_apply, val_main_v1_apply,
    val_main_v3_apply, val_main_v4_apply, val_main_v7_apply]
  have l0 : ∀ k, lidx_main_v0 (ix2 0 c) k = ix2 0 k := fun k => funext fun a => Fin.ext (by match a with | ⟨0, _⟩ => rfl | ⟨1, _⟩ => rfl)
  have r0 : ∀ k, ridx_main_v0 (ix2 0 c) k = ix2 k c := fun k => funext fun a => Fin.ext (by match a with | ⟨0, _⟩ => rfl | ⟨1, _⟩ => rfl)
  have l3 : ∀ k, lidx_main_v3 (ix2 0 c) k = ix2 0 k := fun k => funext fun a => Fin.ext (by match a with | ⟨0, _⟩ => rfl | ⟨1, _⟩ => rfl)
  have r3 : ∀ k, ridx_main_v3 (ix2 0 c) k = ix2 k c := fun k => funext fun a => Fin.ext (by match a with | ⟨0, _⟩ => rfl | ⟨1, _⟩ => rfl)
  have i1 : idx_main_v1 (ix2 (0 : Fin 1) c) = ix1 c := funext fun a => Fin.ext (by match a with | ⟨0, _⟩ => rfl)
  have i4 : idx_main_v4 (ix2 (0 : Fin 1) c) = ix1 c := funext fun a => Fin.ext (by match a with | ⟨0, _⟩ => rfl)
  have i7 : idx_main_v7 (ix2 (0 : Fin 1) c) = ix1 c := funext fun a => Fin.ext (by match a with | ⟨0, _⟩ => rfl)
  simp only [l0, r0, l3, r3, i1, i4, i7]
  unfold CellSpec.gate CellSpec.gateBias
  show ((∑ k : Fin 2048, x0 (ix2 0 k) * x4 (ix2 k c)) + x5 (ix1 c)) + ((∑ k : Fin 2048, x2 (ix2 0 k) * x6 (ix2 k c)) + x7 (ix1 c)) + x8 (ix1 c) = _
  rw [add_add_add_comm, add_assoc]

theorem one_at14 (i : S1x2048.Idx) : val_main_v14 (F := Ideal) i = 1 := by
  rw [val_main_v14_apply, val_main_cst_apply]; exact Ideal.ofBits_one_f32
theorem one_at16 (i : S1x2048.Idx) : val_main_v16 (F := Ideal) i = 1 := by
  rw [val_main_v16_apply, val_main_cst_0_apply]; exact Ideal.ofBits_one_f32
theorem one_at21 (i : S1x2048.Idx) : val_main_v21 (F := Ideal) i = 1 := by
  rw [val_main_v21_apply, val_main_cst_1_apply]; exact Ideal.ofBits_one_f32
theorem one_at23 (i : S1x2048.Idx) : val_main_v23 (F := Ideal) i = 1 := by
  rw [val_main_v23_apply, val_main_cst_2_apply]; exact Ideal.ofBits_one_f32
theorem one_at38 (i : S16x2048.Idx) : val_main_v38 (F := Ideal) i = 1 := by
  rw [val_main_v38_apply, val_main_cst_3_apply]; exact Ideal.ofBits_one_f32
theorem one_at40 (i : S16x2048.Idx) : val_main_v40 (F := Ideal) i = 1 := by
  rw [val_main_v40_apply, val_main_cst_4_apply]; exact Ideal.ofBits_one_f32

/-- The input gate: the sigmoid, spelt `1 / (1 + e^(-·))`, of the first third's column. -/
theorem inGate_at (j : Fin 2048) :
    val_main_v17 (F := Ideal) x0 x2 x4 x5 x6 x7 x8 (ix2 0 j) = Ideal.logistic (CellSpec.gate x0 x2 x4 x6 x5 x7 x8 (CellSpec.colI j)) := by
  rw [val_main_v17_apply, val_main_v15_apply, val_main_v13_apply, val_main_v12_apply, val_main_v9_apply, one_at14, one_at16]
  have e : idx_main_v9 (ix2 (0 : Fin 1) j) = ix2 0 (CellSpec.colI j) := funext fun a => Fin.ext (by match a with | ⟨0, _⟩ => rfl | ⟨1, _⟩ => rfl)
  rw [e, gate_at]
  rfl

/-- The candidate: the sigmoid of the last third's column. -/
theorem cand_at (j : Fin 2048) :
    val_main_v24 (F := Ideal) x0 x2 x4 x5 x6 x7 x8 (ix2 0 j) = Ideal.logistic (CellSpec.gate x0 x2 x4 x6 x5 x7 x8 (CellSpec.colG j)) := by
  rw [val_main_v24_apply, val_main_v22_apply, val_main_v20_apply, val_main_v19_apply, val_main_v11_apply, one_at21, one_at23]
  have e : idx_main_v11 (ix2 (0 : Fin 1) j) = ix2 0 (CellSpec.colG j) :=
    funext fun a => Fin.ext (by match a with | ⟨0, _⟩ => rfl | ⟨1, _⟩ => show 4096 + j.val = j.val + 4096; omega)
  rw [e, gate_at]
  rfl

/-- The output gate: `tanh` of the middle third's column. -/
theorem outGate_at (j : Fin 2048) :
    val_main_v18 (F := Ideal) x0 x2 x4 x5 x6 x7 x8 (ix2 0 j) = Ideal.tanh (CellSpec.gate x0 x2 x4 x6 x5 x7 x8 (CellSpec.colO j)) := by
  rw [val_main_v18_apply, val_main_v10_apply]
  have e : idx_main_v10 (ix2 (0 : Fin 1) j) = ix2 0 (CellSpec.colO j) :=
    funext fun a => Fin.ext (by match a with | ⟨0, _⟩ => rfl | ⟨1, _⟩ => show 2048 + j.val = j.val + 2048; omega)
  rw [e, gate_at]
  rfl

/-! ## The scores -/

theorem score_at (w : Fin 16) (j : Fin 2048) :
    val_main_v41 (F := Ideal) x0 x1 x9 x10 x11 x12 x13 (ix2 w j) = CellSpec.score x0 x1 x9 x11 x10 x12 x13 w j := by
  rw [val_main_v41_apply, val_main_v39_apply, val_main_v37_apply, val_main_v36_apply, val_main_v35_apply, val_main_v34_apply,
    val_main_v33_apply, val_main_v32_apply, val_main_v31_apply, val_main_v30_apply, val_main_v29_apply, val_main_v27_apply,
    val_main_v28_apply, val_main_v26_apply, val_main_v25_apply, one_at38, one_at40]
  have e34 : idx_main_v34 (ix2 w j) = ix2 0 j := funext fun a => Fin.ext (by match a with | ⟨0, _⟩ => rfl | ⟨1, _⟩ => rfl)
  have e32 : idx_main_v32 (ix2 w j) = ix2 0 j := funext fun a => Fin.ext (by match a with | ⟨0, _⟩ => rfl | ⟨1, _⟩ => rfl)
  rw [e34, e32]
  have l25 : ∀ k, lidx_main_v25 (ix2 (0 : Fin 1) j) k = ix2 0 k := fun k => funext fun a => Fin.ext (by match a with | ⟨0, _⟩ => rfl | ⟨1, _⟩ => rfl)
  have r25 : ∀ k, ridx_main_v25 (ix2 (0 : Fin 1) j) k = ix2 k j := fun k => funext fun a => Fin.ext (by match a with | ⟨0, _⟩ => rfl | ⟨1, _⟩ => rfl)
  have l30 : ∀ k, lidx_main_v30 (ix2 w j) k = ix2 w k := fun k => funext fun a => Fin.ext (by match a with | ⟨0, _⟩ => rfl | ⟨1, _⟩ => rfl)
  have r30 : ∀ k, ridx_main_v30 (ix2 w j) k = ix2 k j := fun k => funext fun a => Fin.ext (by match a with | ⟨0, _⟩ => rfl | ⟨1, _⟩ => rfl)
  have i26 : idx_main_v26 (ix2 (0 : Fin 1) j) = ix1 j := funext fun a => Fin.ext (by match a with | ⟨0, _⟩ => rfl)
  have i28 : idx_main_v28 (ix2 (0 : Fin 1) j) = ix1 j := funext fun a => Fin.ext (by match a with | ⟨0, _⟩ => rfl)
  have i31 : idx_main_v31 (ix2 (0 : Fin 1) j) = ix1 j := funext fun a => Fin.ext (by match a with | ⟨0, _⟩ => rfl)
  simp only [l25, r25, l30, r30, i26, i28, i31]
  unfold CellSpec.score CellSpec.attBias
  show Ideal.div 1 (1 + Ideal.exp (-((((∑ k : Fin 2048, x0 (ix2 0 k) * x9 (ix2 k j)) + x10 (ix1 j)) + x13 (ix1 j))
      + ((∑ k : Fin 2048, x1 (ix2 w k) * x11 (ix2 k j)) + x12 (ix1 j))))) = Ideal.logistic _
  have e : (((∑ k : Fin 2048, x0 (ix2 0 k) * x9 (ix2 k j)) + x10 (ix1 j)) + x13 (ix1 j))
      + ((∑ k : Fin 2048, x1 (ix2 w k) * x11 (ix2 k j)) + x12 (ix1 j))
      = ((∑ k : Fin 2048, x0 (ix2 0 k) * x9 (ix2 k j)) + ((x10 (ix1 j) + x13 (ix1 j)) + x12 (ix1 j)))
        + ∑ k : Fin 2048, x1 (ix2 w k) * x11 (ix2 k j) := by abel
  rw [e]
  rfl

/-! ## The seventeen-row stacks -/

theorem expStack_zero (j : Fin 2048) :
    val_main_v42 (F := Ideal) x0 x1 x2 x4 x5 x6 x7 x8 x9 x10 x11 x12 x13 (ix2 0 j) = val_main_v17 (F := Ideal) x0 x2 x4 x5 x6 x7 x8 (ix2 0 j) := by
  unfold val_main_v42
  exact concatenate_pair_apply_left (0 : Fin S17x2048.rank) _ _ concatenates_S1x2048_S16x2048_S17x2048_d0 (ix2 0 j) rfl (ix2 0 j)
    (fun b => by match b with | ⟨0, _⟩ => rfl | ⟨1, _⟩ => rfl)

theorem expStack_succ (w : Fin 16) (j : Fin 2048) :
    val_main_v42 (F := Ideal) x0 x1 x2 x4 x5 x6 x7 x8 x9 x10 x11 x12 x13 (ix2 w.succ j) = val_main_v41 (F := Ideal) x0 x1 x9 x10 x11 x12 x13 (ix2 w j) := by
  unfold val_main_v42
  exact concatenate_pair_apply_right (0 : Fin S17x2048.rank) _ _ concatenates_S1x2048_S16x2048_S17x2048_d0 (ix2 w.succ j) rfl rfl (ix2 w j)
    (fun b hb => by match b with | ⟨0, _⟩ => exact absurd rfl hb | ⟨1, _⟩ => rfl)
    (by show w.val + 1 = (w.succ).val; simp)

theorem cellStack_zero (j : Fin 2048) :
    val_main_v48 (F := Ideal) x0 x1 x2 x4 x5 x6 x7 x8 (ix2 0 j) = val_main_v24 (F := Ideal) x0 x2 x4 x5 x6 x7 x8 (ix2 0 j) := by
  unfold val_main_v48
  exact concatenate_pair_apply_left (0 : Fin S17x2048.rank) _ _ concatenates_S1x2048_S16x2048_S17x2048_d0 (ix2 0 j) rfl (ix2 0 j)
    (fun b => by match b with | ⟨0, _⟩ => rfl | ⟨1, _⟩ => rfl)

theorem cellStack_succ (w : Fin 16) (j : Fin 2048) :
    val_main_v48 (F := Ideal) x0 x1 x2 x4 x5 x6 x7 x8 (ix2 w.succ j) = x1 (ix2 w j) := by
  unfold val_main_v48
  exact concatenate_pair_apply_right (0 : Fin S17x2048.rank) _ _ concatenates_S1x2048_S16x2048_S17x2048_d0 (ix2 w.succ j) rfl rfl (ix2 w j)
    (fun b hb => by match b with | ⟨0, _⟩ => exact absurd rfl hb | ⟨1, _⟩ => rfl)
    (by show w.val + 1 = (w.succ).val; simp)

/-! ## The weights and their sum -/

theorem weight_zero (j : Fin 2048) : val_main_v43 (F := Ideal) x0 x1 x2 x4 x5 x6 x7 x8 x9 x10 x11 x12 x13 (ix2 0 j) = CellSpec.gateWeight x0 x2 x4 x6 x5 x7 x8 j := by
  rw [val_main_v43_apply, expStack_zero, inGate_at]; rfl

theorem weight_succ (w : Fin 16) (j : Fin 2048) :
    val_main_v43 (F := Ideal) x0 x1 x2 x4 x5 x6 x7 x8 x9 x10 x11 x12 x13 (ix2 w.succ j) = Ideal.exp (CellSpec.score x0 x1 x9 x11 x10 x12 x13 w j) := by
  rw [val_main_v43_apply, expStack_succ, score_at]; rfl

/-- The sum of column `j`'s seventeen weights. -/
theorem weightSum_at (j : Fin 2048) :
    val_main_v44 (F := Ideal) x0 x1 x2 x4 x5 x6 x7 x8 x9 x10 x11 x12 x13 (ix1 j) = CellSpec.gateWeight x0 x2 x4 x6 x5 x7 x8 j + ∑ w : Fin 16, Ideal.exp (CellSpec.score x0 x1 x9 x11 x10 x12 x13 w j) := by
  rw [val_main_v44_apply, val_main_cst_5_apply]
  have e : ∀ k, idx_main_v44 (ix1 j) k = ix2 k j := fun k => funext fun a => Fin.ext (by match a with | ⟨0, _⟩ => rfl | ⟨1, _⟩ => rfl)
  simp only [e]
  rw [Fin.sum_univ_succ, weight_zero]
  simp only [weight_succ]
  show Ideal.ofBits .f32 0x00000000#32 + _ = _
  rw [Ideal.ofBits_zero_f32, zero_add]

theorem divisor_at (r : Fin 17) (j : Fin 2048) :
    val_main_v46 (F := Ideal) x0 x1 x2 x4 x5 x6 x7 x8 x9 x10 x11 x12 x13 (ix2 r j) = CellSpec.gateWeight x0 x2 x4 x6 x5 x7 x8 j + ∑ w : Fin 16, Ideal.exp (CellSpec.score x0 x1 x9 x11 x10 x12 x13 w j) := by
  rw [val_main_v46_apply, val_main_v45_apply]
  have e : idx_main_v45 (idx_main_v46 (ix2 r j)) = ix1 j := funext fun a => Fin.ext (by match a with | ⟨0, _⟩ => rfl)
  rw [e, weightSum_at]

/-! ## The common divisor out of the sum -/

@[simp, norm_cast] theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The exponential of a sigmoid is a positive real, whatever the sigmoid's argument. -/
theorem expSigmoid (x : EReal) : ∃ r : ℝ, 0 < r ∧ Ideal.exp (Ideal.logistic x) = (r : EReal) := by
  induction x using EReal.rec with
  | bot => exact ⟨Real.exp 0, Real.exp_pos _, by rw [Ideal.logistic_bot, ← EReal.coe_zero, Ideal.exp_coe]⟩
  | coe r => exact ⟨Real.exp ((1 + Real.exp (-r))⁻¹), Real.exp_pos _, by rw [Ideal.logistic_coe, Ideal.exp_coe]⟩
  | top => exact ⟨Real.exp 1, Real.exp_pos _, by rw [Ideal.logistic_top, ← EReal.coe_one, Ideal.exp_coe]⟩

/-- A sigmoid is a real. -/
theorem sigmoid_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- With finite factors and finite positive weights, dividing every weight by the weights' sum before the weighted
    sum is dividing the weighted sum by it. -/
theorem merge_law (g e0 : EReal) (c e : Fin 16 → EReal) (hg : ∃ r : ℝ, g = (r : EReal)) (he0 : ∃ r : ℝ, 0 < r ∧ e0 = (r : EReal))
    (hc : ∀ w, ∃ r : ℝ, c w = (r : EReal)) (he : ∀ w, ∃ r : ℝ, 0 < r ∧ e w = (r : EReal)) :
    0 + (g * Ideal.div e0 (e0 + ∑ w, e w) + ∑ w, c w * Ideal.div (e w) (e0 + ∑ w, e w))
      = Ideal.div (g * e0 + ∑ w, c w * e w) (e0 + ∑ w, e w) := by
  obtain ⟨g', rfl⟩ := hg
  obtain ⟨a, ha, rfl⟩ := he0
  choose c' hc' using hc
  choose e' he' using he
  obtain rfl : c = fun w => ((c' w : ℝ) : EReal) := funext hc'
  obtain rfl : e = fun w => ((e' w : ℝ) : EReal) := funext fun w => (he' w).2
  have hpos : a + ∑ w, e' w ≠ 0 := ne_of_gt (add_pos_of_pos_of_nonneg ha (Finset.sum_nonneg fun w _ => (he' w).1.le))
  have hS : (a : EReal) + ∑ w, ((e' w : ℝ) : EReal) = ((a + ∑ w, e' w : ℝ) : EReal) := by push_cast; rfl
  rw [hS]
  simp only [Ideal.div_coe hpos]
  have key : (0 : ℝ) + (g' * (a * (1 / (a + ∑ w, e' w))) + ∑ w, c' w * (e' w * (1 / (a + ∑ w, e' w))))
      = (g' * a + ∑ w, c' w * e' w) * (1 / (a + ∑ w, e' w)) := by
    rw [zero_add, add_mul, Finset.sum_mul, mul_assoc]
    exact congrArg _ (Finset.sum_congr rfl fun w _ => (mul_assoc _ _ _).symm)
  exact_mod_cast key

/-! ## The two rows -/

/-- The reference's new cell value at column `j` is the specification's, the word cells being finite. -/
theorem cell_at (hfin : ∀ i, ∃ r : ℝ, x1 i = (r : EReal)) (j : Fin 2048) :
    val_main_v51 (F := Ideal) x0 x1 x2 x4 x5 x6 x7 x8 x9 x10 x11 x12 x13 (ix2 0 j) = CellSpec.newCell x0 x2 x1 x4 x6 x5 x7 x8 x9 x11 x10 x12 x13 j := by
  rw [val_main_v51_apply]
  have e51 : idx_main_v51 (ix2 (0 : Fin 1) j) = ix1 j :=
    funext fun a => Fin.ext (by match a with | ⟨0, _⟩ => show (0 : Fin 1).val * 2048 + j.val = j.val; simp)
  rw [e51, val_main_v50_apply, val_main_cst_6_apply]
  have e : ∀ k, idx_main_v50 (ix1 j) k = ix2 k j := fun k => funext fun a => Fin.ext (by match a with | ⟨0, _⟩ => rfl | ⟨1, _⟩ => rfl)
  simp only [e]
  rw [Fin.sum_univ_succ]
  simp only [val_main_v49_apply, val_main_v47_apply, divisor_at, cellStack_zero, cellStack_succ, weight_zero, weight_succ, cand_at]
  unfold CellSpec.newCell
  show Ideal.ofBits .f32 0x00000000#32 + (Ideal.logistic (CellSpec.gate x0 x2 x4 x6 x5 x7 x8 (CellSpec.colG j)) * Ideal.div (CellSpec.gateWeight x0 x2 x4 x6 x5 x7 x8 j) (CellSpec.gateWeight x0 x2 x4 x6 x5 x7 x8 j + ∑ w : Fin 16, Ideal.exp (CellSpec.score x0 x1 x9 x11 x10 x12 x13 w j))
      + ∑ w : Fin 16, x1 (ix2 w j) * Ideal.div (Ideal.exp (CellSpec.score x0 x1 x9 x11 x10 x12 x13 w j)) (CellSpec.gateWeight x0 x2 x4 x6 x5 x7 x8 j + ∑ w : Fin 16, Ideal.exp (CellSpec.score x0 x1 x9 x11 x10 x12 x13 w j))) = _
  rw [Ideal.ofBits_zero_f32]
  exact merge_law _ _ (fun w => x1 (ix2 w j)) (fun w => Ideal.exp (CellSpec.score x0 x1 x9 x11 x10 x12 x13 w j)) (sigmoid_real _) (expSigmoid _)
    (fun w => hfin _) (fun w => expSigmoid _)

/-- … and so is its new hidden value. -/
theorem hidden_at (hfin : ∀ i, ∃ r : ℝ, x1 i = (r : EReal)) (j : Fin 2048) :
    val_main_v53 (F := Ideal) x0 x1 x2 x4 x5 x6 x7 x8 x9 x10 x11 x12 x13 (ix2 0 j) = CellSpec.newHidden x0 x2 x1 x4 x6 x5 x7 x8 x9 x11 x10 x12 x13 j := by
  rw [val_main_v53_apply, val_main_v52_apply, outGate_at, cell_at x0 x1 x2 x4 x5 x6 x7 x8 x9 x10 x11 x12 x13 hfin]
  rfl

theorem cellRow_eq (hfin : ∀ i, ∃ r : ℝ, x1 i = (r : EReal)) :
    val_main_v51 (F := Ideal) x0 x1 x2 x4 x5 x6 x7 x8 x9 x10 x11 x12 x13 = CellSpec.cellRow x0 x2 x1 x4 x6 x5 x7 x8 x9 x11 x10 x12 x13 := funext fun i => by
  obtain ⟨p, q, rfl⟩ : ∃ (p : Fin 1) (q : Fin 2048), i = ix2 p q := ⟨i 0, i 1, eq_ix2 i⟩
  obtain rfl : p = 0 := Subsingleton.elim _ _
  exact cell_at x0 x1 x2 x4 x5 x6 x7 x8 x9 x10 x11 x12 x13 hfin q

theorem hiddenRow_eq (hfin : ∀ i, ∃ r : ℝ, x1 i = (r : EReal)) :
    val_main_v53 (F := Ideal) x0 x1 x2 x4 x5 x6 x7 x8 x9 x10 x11 x12 x13 = CellSpec.hiddenRow x0 x2 x1 x4 x6 x5 x7 x8 x9 x11 x10 x12 x13 := funext fun i => by
  obtain ⟨p, q, rfl⟩ : ∃ (p : Fin 1) (q : Fin 2048), i = ix2 p q := ⟨i 0, i 1, eq_ix2 i⟩
  obtain rfl : p = 0 := Subsingleton.elim _ _
  exact hidden_at x0 x1 x2 x4 x5 x6 x7 x8 x9 x10 x11 x12 x13 hfin q

end Cert.ReferenceIdeal.CellRef

end
-- ==== Proof.WordsFinite.lean ====
/-
  From the precondition to finiteness. The precondition is the conjunction, over the fourteen argument arrays, of
  "every entry's absolute value is below +∞". Read on the extended reals, an entry whose absolute value `max x (-x)` is
  below `⊤` is neither `⊤` nor `⊥`: it is a real. Only the sixteen word cells' finiteness is used by the certificate.
-/
import proofs.«149161_j44607530336618_2_alg».proof.Pre_finite_inputs
import proofs.«149161_j44607530336618_2_alg».proof.Proof.Gen.Pre_finite_inputs
import Idealize.ShloMosaic.Lib.ReduceAll
import Idealize.ShloMosaic.Lib.ValueIdx
import Idealize.ShloMosaic.PureOps.Ideal

set_option maxRecDepth 16384

noncomputable section

namespace Cert.Pre_finite_inputs.Words

open Cert.Pre_finite_inputs Idealize.ShloMosaic

instance : Subsingleton S_.Idx := ⟨fun a b => funext fun d => d.elim0⟩

/-- The f32 pattern of +∞ is the extended real `⊤`. -/
theorem inf_f32 : Ideal.ofBits .f32 0x7F800000#32 = ⊤ := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [inf_f32] at h
  induction x using EReal.rec with
  | bot => simp [Ideal.cmp] at h
  | coe r => exact ⟨r, rfl⟩
  | top => simp [Ideal.cmp] at h

/-- Under the precondition every word cell is a real. -/
theorem words_real (x0 : FVec Ideal S1x2048 .f32) (x1 : FVec Ideal S16x2048 .f32) (x2 : FVec Ideal S1x2048 .f32) (x3 : FVec Ideal S1x2048 .f32) (x4 : FVec Ideal S2048x6144 .f32) (x5 : FVec Ideal S6144 .f32) (x6 : FVec Ideal S2048x6144 .f32) (x7 : FVec Ideal S6144 .f32) (x8 : FVec Ideal S6144 .f32) (x9 : FVec Ideal S2048x2048 .f32) (x10 : FVec Ideal S2048 .f32) (x11 : FVec Ideal S2048x2048 .f32) (x12 : FVec Ideal S2048 .f32) (x13 : FVec Ideal S2048 .f32)
    (h : fn (F := Ideal) x0 x1 x2 x3 x4 x5 x6 x7 x8 x9 x10 x11 x12 x13 = fun _ => 1#1) (i : S16x2048.Idx) : ∃ r : ℝ, x1 i = (r : EReal) := by
  have h0 := congrFun h ValueIdx.ix0
  dsimp only [fn, fn_part1, fn_part2, fn_part3, fn_part4] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨h6, -⟩ := IntOp.andi_eq_one.1 h5
  obtain ⟨h7, -⟩ := IntOp.andi_eq_one.1 h6
  obtain ⟨h8, -⟩ := IntOp.andi_eq_one.1 h7
  obtain ⟨h9, -⟩ := IntOp.andi_eq_one.1 h8
  obtain ⟨h10, -⟩ := IntOp.andi_eq_one.1 h9
  obtain ⟨h11, -⟩ := IntOp.andi_eq_one.1 h10
  obtain ⟨h12, -⟩ := IntOp.andi_eq_one.1 h11
  obtain ⟨-, hw⟩ := IntOp.andi_eq_one.1 h12
  have hi := Host.reduce_andi_all _ _ _ _ _ hw i
  exact real_of_abs_lt (x1 i) hi

end Cert.Pre_finite_inputs.Words

end
-- ==== Proof.lean ====
/-
  The certificate of the fused attention-merging cell step against its jnp reference.

  Both programs, read on the extended reals, compute one function of the argument arrays (Proof/CellSpec.lean): per
  hidden column, three gates from two matrix–vector products and three bias rows, sixteen attention scores, and the
  new cell value as the average of the candidate and the sixteen word cells under the weights `exp(input gate)` and
  `exp(score)`. The kernel forms that average as ONE quotient, weighted sum over sum of weights, per 128-column grid
  step (Proof/IdealValue.lean, over the run of Proof/IdealRegion.lean); the reference divides each of the seventeen
  weights by their sum first and sums afterwards (Proof/RefRows.lean). The two agree because the weights are finite and
  positive and the factors finite — which is where the precondition is used, for the word cells alone
  (Proof/WordsFinite.lean). The three frame claims are the runs themselves with the results dropped; the idealization
  rewrote nothing, so its claim is trivial.
-/
import proofs.«149161_j44607530336618_2_alg».proof.Defs
import proofs.«149161_j44607530336618_2_alg».proof.Proof.Gen.Kernel
import proofs.«149161_j44607530336618_2_alg».proof.Proof.Gen.KernelIdeal
import proofs.«149161_j44607530336618_2_alg».proof.Proof.Gen.ReferenceIdeal
import proofs.«149161_j44607530336618_2_alg».proof.Proof.Gen.Pre_finite_inputs
import proofs.«149161_j44607530336618_2_alg».proof.Proof.Gen.ReferenceIdeal.Run
import proofs.«149161_j44607530336618_2_alg».proof.Proof.Gen.ReferenceIdeal.Read
import proofs.«149161_j44607530336618_2_alg».proof.Proof.WordRegion
import proofs.«149161_j44607530336618_2_alg».proof.Proof.IdealRegion
import proofs.«149161_j44607530336618_2_alg».proof.Proof.IdealValue
import proofs.«149161_j44607530336618_2_alg».proof.Proof.RefRows
import proofs.«149161_j44607530336618_2_alg».proof.Proof.WordsFinite
import Idealize.ShloMosaic.Adequacy
import Idealize.ShloMosaic.Init

set_option maxRecDepth 16384

noncomputable section

namespace Cert.Proof

open Idealize.ShloMosaic Idealize.ShloMosaic.TcCoe Idealize.SL.Sem

/-- The word-level program runs, faults nowhere and leaves its arguments as they were. -/
theorem frame_k : Cert.frame_Kernel := fun m ρ _ => Cert.Kernel.Cell.frame m ρ

/-- So does the program read on the extended reals. -/
theorem frame_ki : Cert.frame_KernelIdeal := fun m ρ _ => Cert.KernelIdeal.Cell.frame m ρ

/-- The reference is a straight line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals, from memories agreeing on the arguments, the kernel's two result rows and the reference's
    are the specification's two rows of the same arguments. -/
theorem algebraic : Cert.algebraic_KernelIdeal_ReferenceIdeal := by
  intro m ρ m' ρ' hpre hagree
  refine ⟨fun c => Cert.KernelIdeal.CellValue.hiddenOf m c, fun c => Cert.KernelIdeal.CellValue.cellOf m c,
    Cert.KernelIdeal.CellValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13⟩ := hagree c
  have hfin : ∀ i, ∃ r : ℝ, (m' ((c.tc : Thread Cert.ReferenceIdeal.nD Cert.ReferenceIdeal.τ).loc Cert.ReferenceIdeal.main_arg1)) i = (r : EReal) := by
    rw [a1]
    exact fun i => Cert.Pre_finite_inputs.Words.words_real _ _ _ _ _ _ _ _ _ _ _ _ _ _ (hpre c) i
  refine ⟨(h c).1.trans ?_, (h c).2.1.trans ?_, (h c).2.2⟩
  · rw [Cert.ReferenceIdeal.Read.val_main_v53_eq, Cert.ReferenceIdeal.CellRef.hiddenRow_eq _ _ _ _ _ _ _ _ _ _ _ _ _ hfin,
      a0, a1, a2, a4, a5, a6, a7, a8, a9, a10, a11, a12, a13]
  · rw [Cert.ReferenceIdeal.Read.val_main_v51_eq, Cert.ReferenceIdeal.CellRef.cellRow_eq _ _ _ _ _ _ _ _ _ _ _ _ _ hfin,
      a0, a1, a2, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
